-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S256 : Shape := ⟨1, ![256]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32x256x64x64 .f32) (main_arg1 : FVec F S256 .f32) (main_arg2 : FVec F S256 .f32) (main_arg3 : FVec F S256 .f32) (main_arg4 : FVec F S256 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S32x256x64x64 : Shape := ⟨4, ![32, 256, 64, 64]⟩
abbrev S256 : Shape := ⟨1, ![256]⟩
abbrev S32x256x4096 : Shape := ⟨3, ![32, 256, 4096]⟩
abbrev S256x1 : Shape := ⟨2, ![256, 1]⟩
abbrev S32x16x4096 : Shape := ⟨3, ![32, 16, 4096]⟩
abbrev S16x1 : Shape := ⟨2, ![16, 1]⟩
abbrev S16 : Shape := ⟨1, ![16]⟩
abbrev S1x16x1 : Shape := ⟨3, ![1, 16, 1]⟩
abbrev S_ : Shape := ⟨0, ![]⟩

abbrev nBuf : Space → Nat
  | .hbm => 24
  | .vmem => 12
  | .smem => 0
  | _ => 0

abbrev bufTy : (tb : Table) → Fin (tcTables nBuf tb) → BufTy
  | .hbm, ⟨0, _⟩ => ⟨S32x256x64x64, .f32⟩
  | .hbm, ⟨1, _⟩ => ⟨S256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S32x256x4096, .f32⟩
  | .hbm, ⟨6, _⟩ => ⟨S256x1, .f32⟩
  | .hbm, ⟨7, _⟩ => ⟨S256x1, .f32⟩
  | .hbm, ⟨8, _⟩ => ⟨S32x256x4096, .f32⟩
  | .hbm, ⟨9, _⟩ => ⟨S256x1, .f32⟩
  | .hbm, ⟨10, _⟩ => ⟨S256x1, .f32⟩
  | .hbm, ⟨11, _⟩ => ⟨S32x256x64x64, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S_, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S256, .f32⟩
  | .local _ .vmem, ⟨0, _⟩ => ⟨S32x16x4096, .f32⟩
  | .local _ .vmem, ⟨1, _⟩ => ⟨S32x16x4096, .f32⟩
  | .local _ .vmem, ⟨2, _⟩ => ⟨S16x1, .f32⟩
  | .local _ .vmem, ⟨3, _⟩ => ⟨S16x1, .f32⟩
  | .local _ .vmem, ⟨4, _⟩ => ⟨S16x1, .f32⟩
  | .local _ .vmem, ⟨5, _⟩ => ⟨S16x1, .f32⟩
  | .local _ .vmem, ⟨6, _⟩ => ⟨S32x16x4096, .f32⟩
  | .local _ .vmem, ⟨7, _⟩ => ⟨S32x16x4096, .f32⟩
  | .local _ .vmem, ⟨8, _⟩ => ⟨S16x1, .f32⟩
  | .local _ .vmem, ⟨9, _⟩ => ⟨S16x1, .f32⟩
  | .local _ .vmem, ⟨10, _⟩ => ⟨S16x1, .f32⟩
  | .local _ .vmem, ⟨11, _⟩ => ⟨S16x1, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x16x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x256x64x64_S32x256x4096 : S32x256x64x64.ShapeCasts S32x256x4096
  shapeCasts_S256_S256x1 : S256.ShapeCasts S256x1
  inb_S32x16x4096_S32x16x4096_0_0_0 : ∀ a, (![0, 0, 0] : Fin 3 → Nat) a + S32x16x4096.size a ≤ S32x16x4096.size a
  h_S32x16x4096 : 0 < S32x16x4096.numel
  shapeCasts_S32x16x4096_S32x16x4096 : S32x16x4096.ShapeCasts S32x16x4096
  reduces_S32x16x4096_S16 : S32x16x4096.Reduces [0, 2] S16
  inb_S16x1_S16x1_0_0 : ∀ a, (![0, 0] : Fin 2 → Nat) a + S16x1.size a ≤ S16x1.size a
  h_S16x1 : 0 < S16x1.numel
  shapeCasts_S16x1_S16 : S16x1.ShapeCasts S16
  shapeCasts_S16_S1x16x1 : S16.ShapeCasts S1x16x1
  broadcasts_S1x16x1_S32x16x4096 : S1x16x1.Broadcasts S32x16x4096
  shapeCasts_S16_S16x1 : S16.ShapeCasts S16x1
  shapeCasts_S32x256x4096_S32x256x64x64 : S32x256x4096.ShapeCasts S32x256x64x64
  shapeCasts_S256x1_S256 : S256x1.ShapeCasts S256
  bcast_S_S256 : S_.BroadcastsInDim S256 (![] : Fin 0 → Fin S256.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16x4096.size a ≤ S32x256x4096.size a
  hwx0_0 : ∀ i : grid0.Coords, EltTy.bits .f32 = 32 ∨ (Rect.block (s := S32x256x4096) S32x16x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1.size a ≤ S256x1.size a
  hwx0_1 : ∀ i : grid0.Coords, EltTy.bits .f32 = 32 ∨ (Rect.block (s := S256x1) S16x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S256x1.size a
  hwx0_2 : ∀ i : grid0.Coords, EltTy.bits .f32 = 32 ∨ (Rect.block (s := S256x1) S16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x16x4096.size a ≤ S32x256x4096.size a
  hwx0_3 : ∀ i : grid0.Coords, EltTy.bits .f32 = 32 ∨ (Rect.block (s := S32x256x4096) S32x16x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S256x1.size a
  hwx0_4 : ∀ i : grid0.Coords, EltTy.bits .f32 = 32 ∨ (Rect.block (s := S256x1) S16x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S256x1.size a
  hwx0_5 : ∀ i : grid0.Coords, EltTy.bits .f32 = 32 ∨ (Rect.block (s := S256x1) S16x1.size (cc0_transform_5 i) (hinb0_5 i)).WholeWords (EltTy.packing .f32)

variable [Facts₀]

abbrev win0_0 : Pipeline.Window sig grid0 :=
  Pipeline.Window.ofSpec (Memref.whole main_v0) S32x16x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S32x16x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S16x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S16x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S256 : Shape := ⟨1, ![256]⟩
abbrev S32x256x4096 : Shape := ⟨3, ![32, 256, 4096]⟩
abbrev S256x1 : Shape := ⟨2, ![256, 1]⟩
abbrev S1x256x1024 : Shape := ⟨3, ![1, 256, 1024]⟩
abbrev S256x1024 : Shape := ⟨2, ![256, 1024]⟩
abbrev S_ : Shape := ⟨0, ![]⟩

abbrev nBuf : Space → Nat
  | .hbm => 42
  | .vmem => 12
  | .smem => 0
  | _ => 0

abbrev bufTy : (tb : Table) → Fin (tcTables nBuf tb) → BufTy
  | .hbm, ⟨0, _⟩ => ⟨S32x256x64x64, .f32⟩
  | .hbm, ⟨1, _⟩ => ⟨S256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S32x256x4096, .f32⟩
  | .hbm, ⟨6, _⟩ => ⟨S256x1, .f32⟩
  | .hbm, ⟨7, _⟩ => ⟨S256x1, .f32⟩
  | .hbm, ⟨8, _⟩ => ⟨S256, .f32⟩
  | .hbm, ⟨9, _⟩ => ⟨S_, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S_, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S256, .f32⟩
  | .hbm, ⟨27, _⟩ => ⟨S256, .f32⟩
  | .hbm, ⟨28, _⟩ => ⟨S256x1, .f32⟩
  | .hbm, ⟨29, _⟩ => ⟨S256x1, .f32⟩
  | .hbm, ⟨30, _⟩ => ⟨S32x256x4096, .f32⟩
  | .hbm, ⟨31, _⟩ => ⟨S32x256x64x64, .f32⟩
  | .hbm, ⟨32, _⟩ => ⟨S256, .f32⟩
  | .hbm, ⟨33, _⟩ => ⟨S_, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S256, .f32⟩
  | .hbm, ⟨38, _⟩ => ⟨S_, .f32⟩
  | .hbm, ⟨39, _⟩ => ⟨S256, .f32⟩
  | .hbm, ⟨40, _⟩ => ⟨S256, .f32⟩
  | .hbm, ⟨41, _⟩ => ⟨S256, .f32⟩
  | .local _ .vmem, ⟨0, _⟩ => ⟨S1x256x1024, .f32⟩
  | .local _ .vmem, ⟨1, _⟩ => ⟨S1x256x1024, .f32⟩
  | .local _ .vmem, ⟨2, _⟩ => ⟨S256x1, .f32⟩
  | .local _ .vmem, ⟨3, _⟩ => ⟨S256x1, .f32⟩
  | .local _ .vmem, ⟨4, _⟩ => ⟨S256x1024, .f32⟩
  | .local _ .vmem, ⟨5, _⟩ => ⟨S256x1024, .f32⟩
  | .local _ .vmem, ⟨6, _⟩ => ⟨S1x256x1024, .f32⟩
  | .local _ .vmem, ⟨7, _⟩ => ⟨S1x256x1024, .f32⟩
  | .local _ .vmem, ⟨8, _⟩ => ⟨S256x1, .f32⟩
  | .local _ .vmem, ⟨9, _⟩ => ⟨S256x1, .f32⟩
  | .local _ .vmem, ⟨10, _⟩ => ⟨S1x256x1024, .f32⟩
  | .local _ .vmem, ⟨11, _⟩ => ⟨S1x256x1024, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg0 : BitVec 32 := BitVec.ofNat 32 (i 0).val
  let c31_i32 : BitVec 32 := 31#32
  let v18 : BitVec 1 := Scalar.cmpi .eq arg0 c31_i32
  let arg1 : BitVec 32 := BitVec.ofNat 32 (i 1).val
  let c3_i32 : BitVec 32 := 3#32
  let v19 : BitVec 1 := Scalar.cmpi .eq arg1 c3_i32
  let v20 : BitVec 1 := Scalar.andi v18 v19
  let v21 : BitVec 32 := Scalar.extui v20
  let c0_i32_12 : BitVec 32 := 0#32
  let v22 : BitVec 1 := Scalar.cmpi .ne v21 c0_i32_12
  v22

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S32x256x64x64_S32x256x4096 : S32x256x64x64.ShapeCasts S32x256x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S256x1_S256 : S256x1.ShapeCasts S256
  bcast_S_S256 : S_.BroadcastsInDim S256 (![] : Fin 0 → Fin S256.rank)
  shapeCasts_S256x1_S256x1 : S256x1.ShapeCasts S256x1
  broadcasts_S256x1_S256x1024 : S256x1.Broadcasts S256x1024
  shapeCasts_S256x1024_S1x256x1024 : S256x1024.ShapeCasts S1x256x1024
  shapeCasts_S32x256x4096_S32x256x64x64 : S32x256x4096.ShapeCasts S32x256x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x256x4096.size a
  hwx0_0 : ∀ i : grid0.Coords, EltTy.bits .f32 = 32 ∨ (Rect.block (s := S32x256x4096) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .f32 = 32 ∨ (Rect.block (s := S256x1) S256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S32x256x4096.size a
  hwx1_0 : ∀ i : grid1.Coords, EltTy.bits .f32 = 32 ∨ (Rect.block (s := S32x256x4096) S1x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S256x1.size a
  hwx1_1 : ∀ i : grid1.Coords, EltTy.bits .f32 = 32 ∨ (Rect.block (s := S256x1) S256x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S256x1.size a
  hwx1_2 : ∀ i : grid1.Coords, EltTy.bits .f32 = 32 ∨ (Rect.block (s := S256x1) S256x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S32x256x4096.size a
  hwx1_3 : ∀ i : grid1.Coords, EltTy.bits .f32 = 32 ∨ (Rect.block (s := S32x256x4096) S1x256x1024.size (cc1_transform_3 i) (hinb1_3 i)).WholeWords (EltTy.packing .f32)

variable [Facts₀]

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S256x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S256x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S256x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.BatchStats.lean ====
/-
  Training-mode batch normalisation of an array indexed by (batch, channel, position), extents 32 x 256 x 4096, on
  the extended reals. Per channel: the sum and the sum of squares over every batch entry and position; the mean is
  the sum times 2^-17 (the array has 32 * 4096 = 2^17 entries per channel), the variance is the mean of squares less
  the squared mean, clipped below at zero; the scale is the weight times the reciprocal square root of the variance
  plus a small constant, the shift is the bias less the mean times the scale; an entry is normalised to itself times
  its channel's scale plus its channel's shift. The running mean and variance move a tenth of the way to the batch's.
  Every float constant is kept as its 32-bit word: the same word on two sides of an equation is never evaluated. The
  one place two different words meet is the count: dividing by the word of 131072 is multiplying by the word of
  2^-17, for every extended real (`div_count`).
-/
import Idealize.ShloMosaic.PureOps.Ideal
import Idealize.ShloMosaic.Lib.ValueIdx

noncomputable section

open scoped BigOperators

namespace Cert.BatchStats

open Idealize.ShloMosaic Idealize.ShloMosaic.ValueIdx

/-- (batch, channel, position). -/
abbrev A3 : Shape := ⟨3, ![32, 256, 4096]⟩
/-- One entry per channel. -/
abbrev C1 : Shape := ⟨1, ![256]⟩

/-- The word of 2^-17, one over the number of entries per channel. -/
def invCount : EReal := Ideal.ofBits .f32 0x37000000#32
/-- The word of the small constant added to the variance. -/
def eps : EReal := Ideal.ofBits .f32 0x3727C5AC#32
/-- The word of the running statistics' step, a tenth. -/
def momentum : EReal := Ideal.ofBits .f32 0x3DCCCCCD#32
/-- The word of zero, the variance's floor. -/
def floor0 : EReal := Ideal.ofBits .f32 0x00000000#32

variable (x : A3.Idx → EReal) (w b rm rv : C1.Idx → EReal)

/-- A channel's sum over batch and position. -/
def chanSum (c : Fin 256) : EReal := ∑ n : Fin 32, ∑ j : Fin 4096, x (ix3 n c j)
/-- A channel's sum of squares over batch and position. -/
def chanSumSq (c : Fin 256) : EReal := ∑ n : Fin 32, ∑ j : Fin 4096, x (ix3 n c j) * x (ix3 n c j)
/-- The mean and variance from given sums (so that two ways of summing meet in one place). -/
def meanOf (s : EReal) : EReal := s * invCount
def varOf (s ss : EReal) : EReal := max (ss * invCount - meanOf s * meanOf s) floor0
def scaleOf (wc s ss : EReal) : EReal := wc * Ideal.rsqrt (varOf s ss + eps)
def shiftOf (wc bc s ss : EReal) : EReal := bc - meanOf s * scaleOf wc s ss

def mean (c : Fin 256) : EReal := meanOf (chanSum x c)
def var (c : Fin 256) : EReal := varOf (chanSum x c) (chanSumSq x c)
def scale (c : Fin 256) : EReal := scaleOf (w (ix1 c)) (chanSum x c) (chanSumSq x c)
def shift (c : Fin 256) : EReal := shiftOf (w (ix1 c)) (b (ix1 c)) (chanSum x c) (chanSumSq x c)

/-- The normalised array. -/
def normalized : A3.Idx → EReal := fun i => x i * scale x w (i 1) + shift x w b (i 1)
/-- The batch mean and variance as arrays over the channels. -/
def meanArr : C1.Idx → EReal := fun i => mean x (i 0)
def varArr : C1.Idx → EReal := fun i => var x (i 0)
/-- The running statistics after the step. -/
def runMean : C1.Idx → EReal := fun i => rm i + momentum * (mean x (i 0) - rm i)
def runVar : C1.Idx → EReal := fun i => rv i + momentum * (var x (i 0) - rv i)

theorem normalized_ix3 (n : Fin 32) (c : Fin 256) (j : Fin 4096) :
    normalized x w b (ix3 n c j) = x (ix3 n c j) * scale x w c + shift x w b c := rfl
theorem meanArr_ix1 (c : Fin 256) : meanArr x (ix1 c) = mean x c := rfl
theorem varArr_ix1 (c : Fin 256) : varArr x (ix1 c) = var x c := rfl
theorem runMean_ix1 (c : Fin 256) : runMean x rm (ix1 c) = rm (ix1 c) + momentum * (mean x c - rm (ix1 c)) := rfl
theorem runVar_ix1 (c : Fin 256) : runVar x rv (ix1 c) = rv (ix1 c) + momentum * (var x c - rv (ix1 c)) := rfl

/-- The arguments' array has the positions as a 64 x 64 grid; both programs read it flattened to 4096 positions and
    return the normalised array folded back. The two layout changes are carried as they are, never opened. -/
abbrev A4 : Shape := ⟨4, ![32, 256, 64, 64]⟩
def flat (a : A4.Idx → EReal) : A3.Idx → EReal := shapeCast A3 a (by decide)
def unflat (y : A3.Idx → EReal) : A4.Idx → EReal := shapeCast A4 y (by decide)

/-- The three results as functions of the five argument arrays. -/
def outY (a : A4.Idx → EReal) (w b : C1.Idx → EReal) : A4.Idx → EReal := unflat (normalized (flat a) w b)
def outMean (a : A4.Idx → EReal) (rm : C1.Idx → EReal) : C1.Idx → EReal := runMean (flat a) rm
def outVar (a : A4.Idx → EReal) (rv : C1.Idx → EReal) : C1.Idx → EReal := runVar (flat a) rv

/-- The word 0x48000000 is the real 131072 = 2^17. -/
theorem ofBits_count : Ideal.ofBits .f32 0x48000000#32 = ((131072 : ℝ) : EReal) := by
  simp [Ideal.ofBits, Ideal.ieee, -EReal.coe_mul]; norm_num

/-- The word 0x37000000 is the real 2^-17 = 1/131072. -/
theorem invCount_eq : invCount = ((1 / 131072 : ℝ) : EReal) := by
  unfold invCount
  simp [Ideal.ofBits, Ideal.ieee, -EReal.coe_mul]; norm_num

/-- Dividing by the count is multiplying by its reciprocal's word, on every extended real. -/
theorem div_count (s : EReal) : Ideal.div s (Ideal.ofBits .f32 0x48000000#32) = s * invCount := by
  rw [ofBits_count, invCount_eq]
  exact Ideal.div_coe (by norm_num) s

end Cert.BatchStats

end
-- ==== Proof.LibTwoAxisSum.lean ====
/-
  A sum over two axes of a rank-3 array, read coordinate by coordinate.

  A float add-reduction of an array of extents A x B x C over its first and last axes keeps the middle axis: its entry
  at r is the sum of the source over every index whose middle coordinate is r. Those indices are exactly the triples
  (n, r, j), so the entry is the double sum over n and j. The library states this for one reduced axis and for a
  reduction to all-unit axes; this is the form for the outer pair of axes of a rank-3 array, for any extents.
-/
import Idealize.ShloMosaic.PureOps.Ideal.Laws
import Idealize.ShloMosaic.Lib.ValueIdx

open scoped BigOperators

namespace Cert.LibTwoAxisSum

open Idealize.ShloMosaic Idealize.ShloMosaic.ValueIdx

variable {A B C : Nat}

/-- Dropping the first and last coordinates of a rank-3 index leaves its middle coordinate. -/
theorem drop_outer_val (h : (⟨3, ![A, B, C]⟩ : Shape).Reduces [0, 2] ⟨1, ![B]⟩) (i : (⟨3, ![A, B, C]⟩ : Shape).Idx) :
    (h.drop i 0 : Nat) = (i 1 : Nat) :=
  Shape.Reduces.drop_apply_val_of_eq h i 0 1 (show (0 : Nat) < 1 from Nat.one_pos) rfl

/-- So an index drops to `r` exactly when its middle coordinate is `r`. -/
theorem drop_outer_eq_iff (h : (⟨3, ![A, B, C]⟩ : Shape).Reduces [0, 2] ⟨1, ![B]⟩) (i : (⟨3, ![A, B, C]⟩ : Shape).Idx)
    (r : Fin B) : h.drop i = ix1 r ↔ (i 1 : Nat) = r.val := by
  constructor
  · intro e
    rw [← drop_outer_val h i, e]
    rfl
  · intro e
    funext b
    match b with
    | ⟨0, _⟩ => exact Fin.ext ((drop_outer_val h i).trans e)

/-- The indices with middle coordinate `r`, summed, are the two outer coordinates, summed one inside the other. -/
theorem sum_filter_drop_outer {α : Type} [AddCommMonoid α] (h : (⟨3, ![A, B, C]⟩ : Shape).Reduces [0, 2] ⟨1, ![B]⟩)
    (x : (⟨3, ![A, B, C]⟩ : Shape).Idx → α) (r : Fin B) :
    ∑ i ∈ Finset.univ.filter (fun i => h.drop i = ix1 r), x i = ∑ n : Fin A, ∑ j : Fin C, x (ix3 n r j) := by
  rw [← Finset.sum_product' Finset.univ Finset.univ (fun (n : Fin A) (j : Fin C) => x (ix3 n r j))]
  refine Finset.sum_nbij' (fun i => ((i 0 : Fin A), (i 2 : Fin C))) (fun p => ix3 p.1 r p.2) ?_ ?_ ?_ ?_ ?_
  · intro i _; exact Finset.mem_product.2 ⟨Finset.mem_univ _, Finset.mem_univ _⟩
  · intro p _; exact Finset.mem_filter.2 ⟨Finset.mem_univ _, (drop_outer_eq_iff h _ r).2 rfl⟩
  · intro i hi
    have e : (i 1 : Nat) = r.val := (drop_outer_eq_iff h i r).1 (Finset.mem_filter.1 hi).2
    funext a
    match a with
    | ⟨0, _⟩ => rfl
    | ⟨1, _⟩ => exact Fin.ext e.symm
    | ⟨2, _⟩ => rfl
  · intro p _; rfl
  · intro i hi
    have e : (i 1 : Nat) = r.val := (drop_outer_eq_iff h i r).1 (Finset.mem_filter.1 hi).2
    refine congrArg x (funext fun a => ?_)
    match a with
    | ⟨0, _⟩ => rfl
    | ⟨1, _⟩ => exact Fin.ext e
    | ⟨2, _⟩ => rfl

/-- A float add-reduction over the outer pair of axes of a rank-3 array, read at the ideal values at the kept
    coordinate `r`: the double sum of the source over the two reduced coordinates. -/
theorem multiReduction_add_outer {φ : FTy} (src : FVec Ideal ⟨3, ![A, B, C]⟩ φ) (acc : BitVec φ.bits)
    (h : (⟨3, ![A, B, C]⟩ : Shape).Reduces [0, 2] ⟨1, ![B]⟩) (hφ : FKind.Formats φ)
    (hacc : acc = FKind.add.neutral φ hφ) (r : Fin B) :
    multiReduction .add [0, 2] ⟨1, ![B]⟩ src acc h hφ hacc (ix1 r) = ∑ n : Fin A, ∑ j : Fin C, src (ix3 n r j) :=
  sum_filter_drop_outer h src r

end Cert.LibTwoAxisSum
-- ==== Proof.FusedValueBlock.lean ====
/-
  One block of the fused batch normalisation, entry by entry.

  The body works on a block of 32 x 16 x 4096 entries (batch, 16 consecutive channels, position) and on the 16
  weights and 16 biases of those channels, held as columns. Row r of the block is one channel. Its sum and its sum
  of squares over batch and position are double sums over the two outer coordinates; everything after the sums is
  done per row: the mean is the sum times the reciprocal count, the variance is the mean of squares less the squared
  mean clipped below at zero, the scale is the weight times the reciprocal root of the variance plus the small
  constant, the shift is the bias less the mean times the scale, and an entry of the result is the block's entry
  times its row's scale plus its row's shift. The two statistics the body stores are the mean and the variance of
  each row, as columns. The float constants are kept as their words on both sides.
-/
import proofs.«110882_g2000100512545763_pallasbulk_79_2_alg».proof.Proof.Gen.KernelIdeal.Skeleton
import proofs.«110882_g2000100512545763_pallasbulk_79_2_alg».proof.Proof.BatchStats
import proofs.«110882_g2000100512545763_pallasbulk_79_2_alg».proof.Proof.LibTwoAxisSum
import Idealize.ShloMosaic.Lib.ValueLayout

noncomputable section

open scoped BigOperators

namespace Cert.KernelIdeal.FusedValue

open Idealize.ShloMosaic Idealize.ShloMosaic.ValueIdx Cert.KernelIdeal Cert.KernelIdeal.Gen

/-! ## The layout changes of the body, read at an entry -/

section Layout
variable {α : Type}

/-- A column of 16 read as a vector of 16: entry r is the column's entry (r, 0). -/
theorem col_as_vec (v : S16x1.Idx → α) (h : S16x1.ShapeCasts S16) (r : Fin 16) :
    shapeCast S16 v h (ix1 r) = v (ix2 r (0 : Fin 1)) :=
  shapeCast_apply v h (ix1 r) (ix2 r (0 : Fin 1)) (by
    rw [Shape.rowMajor_val_two, Shape.rowMajor_val_one]
    show r.val * 1 + 0 = r.val
    omega)

/-- A vector of 16 read as a column: entry (r, u) is the vector's entry r. -/
theorem vec_as_col (v : S16.Idx → α) (h : S16.ShapeCasts S16x1) (r : Fin 16) (u : Fin 1) :
    shapeCast S16x1 v h (ix2 r u) = v (ix1 r) :=
  shapeCast_apply v h (ix2 r u) (ix1 r) (by
    rw [Shape.rowMajor_val_two, Shape.rowMajor_val_one]
    show r.val = r.val * 1 + u.val
    omega)

/-- A vector of 16 laid along the middle axis and repeated over batch and position: entry (n, r, j) is the
    vector's entry r. -/
theorem vec_over_block (v : S16.Idx → α) (h : S16.ShapeCasts S1x16x1) (h' : S1x16x1.Broadcasts S32x16x4096)
    (n : Fin 32) (r : Fin 16) (j : Fin 4096) :
    broadcastTo S32x16x4096 (shapeCast S1x16x1 v h) h' (ix3 n r j) = v (ix1 r) := by
  refine (broadcastTo_apply _ h' (ix3 n r j) (ix3 (0 : Fin 1) r (0 : Fin 1)) fun a => ?_).trans ?_
  · match a with
    | ⟨0, _⟩ => rfl
    | ⟨1, _⟩ => rfl
    | ⟨2, _⟩ => rfl
  · exact shapeCast_apply v h _ (ix1 r) (by
      rw [Shape.rowMajor_val_three, Shape.rowMajor_val_one]
      show r.val = (0 * 16 + r.val) * 1 + 0
      omega)

end Layout

/-! ## The sums of a row -/

/-- Row r's sum over batch and position. -/
def rowSum (x0 : Vec Ideal S32x16x4096 .f32) (r : Fin 16) : EReal := ∑ n : Fin 32, ∑ j : Fin 4096, x0 (ix3 n r j)
/-- Row r's sum of squares over batch and position. -/
def rowSumSq (x0 : Vec Ideal S32x16x4096 .f32) (r : Fin 16) : EReal :=
  ∑ n : Fin 32, ∑ j : Fin 4096, x0 (ix3 n r j) * x0 (ix3 n r j)

variable (x0 : Vec Ideal S32x16x4096 .f32) (x1 x2 : Vec Ideal S16x1 .f32)

/-- The body's first value is the loaded block itself. -/
theorem pay1_eq : k0_pay1 (F := Ideal) x0 = x0 := shapeCast_self x0 _

/-- The reduction over batch and position of the block, at row r, is the row's sum. -/
theorem sum_row (r : Fin 16) :
    multiReduction (F := Ideal) .add [0, 2] S16 (k0_pay1 x0) 0x00000000#32 reduces_S32x16x4096_S16 (.inl rfl) rfl (ix1 r)
      = rowSum x0 r := by
  rw [pay1_eq]
  exact Cert.LibTwoAxisSum.multiReduction_add_outer x0 _ _ _ _ r

/-- The reduction of the squared block, at row r, is the row's sum of squares. -/
theorem sumSq_row (r : Fin 16) :
    multiReduction (F := Ideal) .add [0, 2] S16 (mulf (k0_pay1 x0) (k0_pay1 x0)) 0x00000000#32 reduces_S32x16x4096_S16 (.inl rfl) rfl (ix1 r)
      = rowSumSq x0 r := by
  rw [pay1_eq]
  exact Cert.LibTwoAxisSum.multiReduction_add_outer (mulf x0 x0) _ _ _ _ r

/-- The mean vector at row r. -/
theorem pay2_apply (r : Fin 16) : k0_pay2 (F := Ideal) x0 (ix1 r) = Cert.BatchStats.meanOf (rowSum x0 r) :=
  congrArg (· * Cert.BatchStats.invCount) (sum_row x0 r)

/-- The variance vector at row r. -/
theorem pay3_apply (r : Fin 16) :
    k0_pay3 (F := Ideal) x0 (ix1 r) = Cert.BatchStats.varOf (rowSum x0 r) (rowSumSq x0 r) := by
  show max (multiReduction (F := Ideal) .add [0, 2] S16 (mulf (k0_pay1 x0) (k0_pay1 x0)) 0x00000000#32 reduces_S32x16x4096_S16 (.inl rfl) rfl (ix1 r)
        * Ideal.ofBits .f32 0x37000000#32 - k0_pay2 (F := Ideal) x0 (ix1 r) * k0_pay2 (F := Ideal) x0 (ix1 r)) (Ideal.ofBits .f32 0x00000000#32) = _
  rw [sumSq_row, pay2_apply]
  rfl

/-- The scale vector of the body: the weights times the reciprocal root of the variance plus the small constant. -/
def scaleVec : FVec Ideal S16 .f32 :=
  mulf (shapeCast S16 x1 shapeCasts_S16x1_S16) (rsqrt (addf (k0_pay3 (F := Ideal) x0) (broadcast S16 (Scalar.ofBits (F := Ideal) .f32 0x3727C5AC#32))))
/-- The shift vector of the body: the biases less the means times the scales. -/
def shiftVec : FVec Ideal S16 .f32 :=
  subf (shapeCast S16 x2 shapeCasts_S16x1_S16) (mulf (k0_pay2 (F := Ideal) x0) (scaleVec x0 x1))

/-- The stored block is the loaded block times the scales plus the shifts, each laid along the channel axis. -/
theorem pay4_eq : k0_pay4 (F := Ideal) x0 x1 x2
    = addf (mulf (k0_pay1 (F := Ideal) x0) (broadcastTo S32x16x4096 (shapeCast S1x16x1 (scaleVec x0 x1) shapeCasts_S16_S1x16x1) broadcasts_S1x16x1_S32x16x4096))
        (broadcastTo S32x16x4096 (shapeCast S1x16x1 (shiftVec x0 x1 x2) shapeCasts_S16_S1x16x1) broadcasts_S1x16x1_S32x16x4096) := rfl

theorem scaleVec_apply (r : Fin 16) :
    scaleVec x0 x1 (ix1 r) = Cert.BatchStats.scaleOf (x1 (ix2 r (0 : Fin 1))) (rowSum x0 r) (rowSumSq x0 r) := by
  show shapeCast S16 x1 shapeCasts_S16x1_S16 (ix1 r) * Ideal.rsqrt (k0_pay3 (F := Ideal) x0 (ix1 r) + Ideal.ofBits .f32 0x3727C5AC#32) = _
  rw [col_as_vec, pay3_apply]
  rfl

theorem shiftVec_apply (r : Fin 16) :
    shiftVec x0 x1 x2 (ix1 r)
      = Cert.BatchStats.shiftOf (x1 (ix2 r (0 : Fin 1))) (x2 (ix2 r (0 : Fin 1))) (rowSum x0 r) (rowSumSq x0 r) := by
  show shapeCast S16 x2 shapeCasts_S16x1_S16 (ix1 r) - k0_pay2 (F := Ideal) x0 (ix1 r) * scaleVec x0 x1 (ix1 r) = _
  rw [col_as_vec, pay2_apply, scaleVec_apply]
  rfl

/-- THE STORED BLOCK at (n, r, j): the block's entry times row r's scale plus row r's shift. -/
theorem pay4_apply (n : Fin 32) (r : Fin 16) (j : Fin 4096) :
    k0_pay4 (F := Ideal) x0 x1 x2 (ix3 n r j)
      = x0 (ix3 n r j) * Cert.BatchStats.scaleOf (x1 (ix2 r (0 : Fin 1))) (rowSum x0 r) (rowSumSq x0 r)
        + Cert.BatchStats.shiftOf (x1 (ix2 r (0 : Fin 1))) (x2 (ix2 r (0 : Fin 1))) (rowSum x0 r) (rowSumSq x0 r) := by
  rw [pay4_eq, pay1_eq]
  show x0 (ix3 n r j) * broadcastTo S32x16x4096 (shapeCast S1x16x1 (scaleVec x0 x1) shapeCasts_S16_S1x16x1) broadcasts_S1x16x1_S32x16x4096 (ix3 n r j)
      + broadcastTo S32x16x4096 (shapeCast S1x16x1 (shiftVec x0 x1 x2) shapeCasts_S16_S1x16x1) broadcasts_S1x16x1_S32x16x4096 (ix3 n r j) = _
  rw [vec_over_block, vec_over_block, scaleVec_apply, shiftVec_apply]

/-- THE STORED MEANS at (r, u): row r's mean. -/
theorem pay5_apply (r : Fin 16) (u : Fin 1) :
    k0_pay5 (F := Ideal) x0 (ix2 r u) = Cert.BatchStats.meanOf (rowSum x0 r) :=
  (vec_as_col (k0_pay2 (F := Ideal) x0) shapeCasts_S16_S16x1 r u).trans (pay2_apply x0 r)

/-- THE STORED VARIANCES at (r, u): row r's variance. -/
theorem pay6_apply (r : Fin 16) (u : Fin 1) :
    k0_pay6 (F := Ideal) x0 (ix2 r u) = Cert.BatchStats.varOf (rowSum x0 r) (rowSumSq x0 r) :=
  (vec_as_col (k0_pay3 (F := Ideal) x0) shapeCasts_S16_S16x1 r u).trans (pay3_apply x0 r)

end Cert.KernelIdeal.FusedValue

end
-- ==== Proof.FusedValueReads.lean ====
/-
  The blocks the grid's points work on, as parts of the argument arrays.

  Point p of the 16 reads channels 16p .. 16p + 15: of the flattened argument array (batch, channel, position) the
  block (every batch entry, those 16 channels, every position), and of the weight and bias columns the 16 rows of
  those channels. The flattened array is the first argument re-laid from a 64 x 64 grid of positions to 4096; the
  weight and bias columns are the two vectors of 256 stood up as 256 x 1 columns, so a column's row is the vector's
  entry. Written here: where each of the program's index maps sends a point (decided over the 16 points), the three
  staged arrays as the grid finds them, and each block's entry as an entry of an argument.
-/
import proofs.«110882_g2000100512545763_pallasbulk_79_2_alg».proof.Proof.Gen.KernelIdeal.Frame
import proofs.«110882_g2000100512545763_pallasbulk_79_2_alg».proof.Proof.BatchStats
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.FusedValue

open Cert.KernelIdeal Cert.KernelIdeal.Gen

variable (m : (ℓ : Loc nD τ sig) → Buf (Elt Ideal) ℓ)

/-- Channel 16p + r: row r of point p's block. -/
def chan (p : Nat) (hp : p < 16) (r : Fin 16) : Fin 256 := ⟨16 * p + r.val, by omega⟩

theorem chan_val (p : Nat) (hp : p < 16) (r : Fin 16) : (chan p hp r).val = 16 * p + r.val := rfl

/-- A grid point's number is below 16. -/
theorem point_lt (t : Fin cfg0.N) : t.val < 16 := Nat.lt_of_lt_of_eq t.isLt N_0

/-- A vector of `a` entries stood up as an `a x 1` column: the column's entry (q, u) is the vector's entry q. -/
theorem column_of_vector {α : Type} {a : Nat} (v : (⟨1, ![a]⟩ : Shape).Idx → α)
    (h : (⟨1, ![a]⟩ : Shape).ShapeCasts ⟨2, ![a, 1]⟩) (q : Fin a) (u : Fin 1) :
    shapeCast ⟨2, ![a, 1]⟩ v h (ix2 q u) = v (ix1 q) :=
  shapeCast_apply v h (ix2 q u) (ix1 q) (by
    rw [Shape.rowMajor_val_two, Shape.rowMajor_val_one]
    show q.val = q.val * 1 + u.val
    omega)

/-- The program's index maps over the grid: the array of (batch, channel, position) moves along its channel axis one
    block per point and stays at block 0 on the other two; the columns move along their rows. -/
theorem idx_facts : ∀ t : Fin cfg0.N,
    (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 3) = 0 ∧ win0_3.index t (1 : Fin 3) = t.val ∧ win0_3.index t (2 : Fin 3) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-! ## The three staged arrays as the grid finds them -/

/-- The staged array of (batch, channel, position) is the first argument with its positions flattened. -/
theorem V_v0 (c : Dev nD) :
    (V m c main_v0 : S32x256x4096.Idx → EReal) = Cert.BatchStats.flat (m ((c : Thread nD τ).loc main_arg0)) := by
  show StableHlo.after hostOps0 (fun b => m (c, b)) (Proc.devRef .tc main_v0) = _
  after_results
  rfl

/-- The staged weight column is the second argument stood up as a column. -/
theorem V_v1 (c : Dev nD) :
    (V m c main_v1 : S256x1.Idx → EReal)
      = shapeCast S256x1 (m ((c : Thread nD τ).loc main_arg1) : S256.Idx → EReal) shapeCasts_S256_S256x1 := by
  show StableHlo.after hostOps0 (fun b => m (c, b)) (Proc.devRef .tc main_v1) = _
  after_results
  rfl

/-- The staged bias column is the third argument stood up as a column. -/
theorem V_v2 (c : Dev nD) :
    (V m c main_v2 : S256x1.Idx → EReal)
      = shapeCast S256x1 (m ((c : Thread nD τ).loc main_arg2) : S256.Idx → EReal) shapeCasts_S256_S256x1 := by
  show StableHlo.after hostOps0 (fun b => m (c, b)) (Proc.devRef .tc main_v2) = _
  after_results
  rfl

/-! ## A block's entry as an entry of its array -/

/-- Point t's block of the array of (batch, channel, position): entry (n, r, j) is the array's entry (n, 16t + r, j). -/
theorem iblk0_apply (c : Dev nD) (t : Fin cfg0.N) (x : S32x16x4096.Idx) (k : S32x256x4096.Idx)
    (hk0 : (k 0).val = (x 0).val) (hk1 : (k 1).val = 16 * t.val + (x 1).val) (hk2 : (k 2).val = (x 2).val) :
    (iblk m c 0 t : Vec Ideal S32x16x4096 .f32) x = (V m c main_v0 : S32x256x4096.Idx → EReal) k := by
  obtain ⟨⟨e0, e1, e2⟩, -⟩ := idx_facts t
  unfold iblk
  rw [View.read_apply]
  show V m c main_v0 _ = V m c main_v0 _
  refine congrArg _ (funext fun a => Fin.ext ?_)
  match a with
  | ⟨0, _⟩ => show win0_0.index t (0 : Fin 3) * 32 + 1 * (x 0).val = (k 0).val; rw [e0, hk0]; omega
  | ⟨1, _⟩ => show win0_0.index t (1 : Fin 3) * 16 + 1 * (x 1).val = (k 1).val; rw [e1, hk1]; omega
  | ⟨2, _⟩ => show win0_0.index t (2 : Fin 3) * 4096 + 1 * (x 2).val = (k 2).val; rw [e2, hk2]; omega

/-- Point t's block of the weight column: row r is the column's row 16t + r. -/
theorem iblk1_apply (c : Dev nD) (t : Fin cfg0.N) (x : S16x1.Idx) (k : S256x1.Idx)
    (hk0 : (k 0).val = 16 * t.val + (x 0).val) (hk1 : (k 1).val = (x 1).val) :
    (iblk m c 1 t : Vec Ideal S16x1 .f32) x = (V m c main_v1 : S256x1.Idx → EReal) k := by
  obtain ⟨-, ⟨e0, e1⟩, -⟩ := idx_facts t
  unfold iblk
  rw [View.read_apply]
  show V m c main_v1 _ = V m c main_v1 _
  refine congrArg _ (funext fun a => Fin.ext ?_)
  match a with
  | ⟨0, _⟩ => show win0_1.index t (0 : Fin 2) * 16 + 1 * (x 0).val = (k 0).val; rw [e0, hk0]; omega
  | ⟨1, _⟩ => show win0_1.index t (1 : Fin 2) * 1 + 1 * (x 1).val = (k 1).val; rw [e1, hk1]; omega

/-- Point t's block of the bias column: row r is the column's row 16t + r. -/
theorem iblk2_apply (c : Dev nD) (t : Fin cfg0.N) (x : S16x1.Idx) (k : S256x1.Idx)
    (hk0 : (k 0).val = 16 * t.val + (x 0).val) (hk1 : (k 1).val = (x 1).val) :
    (iblk m c 2 t : Vec Ideal S16x1 .f32) x = (V m c main_v2 : S256x1.Idx → EReal) k := by
  obtain ⟨-, -, ⟨e0, e1⟩, -⟩ := idx_facts t
  unfold iblk
  rw [View.read_apply]
  show V m c main_v2 _ = V m c main_v2 _
  refine congrArg _ (funext fun a => Fin.ext ?_)
  match a with
  | ⟨0, _⟩ => show win0_2.index t (0 : Fin 2) * 16 + 1 * (x 0).val = (k 0).val; rw [e0, hk0]; omega
  | ⟨1, _⟩ => show win0_2.index t (1 : Fin 2) * 1 + 1 * (x 1).val = (k 1).val; rw [e1, hk1]; omega

/-! ## The same, down to the arguments -/

/-- Point t's block of the flattened first argument. -/
theorem block_x (c : Dev nD) (t : Fin cfg0.N) (n : Fin 32) (r : Fin 16) (j : Fin 4096) :
    (iblk m c 0 t : Vec Ideal S32x16x4096 .f32) (ix3 n r j)
      = Cert.BatchStats.flat (m ((c : Thread nD τ).loc main_arg0)) (ix3 n (chan t.val (point_lt t) r) j) :=
  (iblk0_apply m c t (ix3 n r j) (ix3 n (chan t.val (point_lt t) r) j) rfl rfl rfl).trans
    (congrFun (V_v0 m c) _)

/-- Point t's weights: row r is the second argument's entry 16t + r. -/
theorem block_w (c : Dev nD) (t : Fin cfg0.N) (r : Fin 16) :
    (iblk m c 1 t : Vec Ideal S16x1 .f32) (ix2 r (0 : Fin 1))
      = (m ((c : Thread nD τ).loc main_arg1) : S256.Idx → EReal) (ix1 (chan t.val (point_lt t) r)) :=
  ((iblk1_apply m c t (ix2 r (0 : Fin 1)) (ix2 (chan t.val (point_lt t) r) (0 : Fin 1)) rfl rfl).trans
    (congrFun (V_v1 m c) _)).trans (column_of_vector _ _ _ _)

/-- Point t's biases: row r is the third argument's entry 16t + r. -/
theorem block_b (c : Dev nD) (t : Fin cfg0.N) (r : Fin 16) :
    (iblk m c 2 t : Vec Ideal S16x1 .f32) (ix2 r (0 : Fin 1))
      = (m ((c : Thread nD τ).loc main_arg2) : S256.Idx → EReal) (ix1 (chan t.val (point_lt t) r)) :=
  ((iblk2_apply m c t (ix2 r (0 : Fin 1)) (ix2 (chan t.val (point_lt t) r) (0 : Fin 1)) rfl rfl).trans
    (congrFun (V_v2 m c) _)).trans (column_of_vector _ _ _ _)

end Cert.KernelIdeal.FusedValue

end
-- ==== Proof.FusedValueArrays.lean ====
/-
  From the blocks to the three arrays the fused kernel leaves.

  Point p of the grid writes back three blocks: channels 16p .. 16p + 15 of the normalised array, and rows
  16p .. 16p + 15 of the column of batch means and of the column of batch variances. A row of a point's block is one
  channel, and its sums over batch and position are that channel's sums over the whole flattened argument, so each
  block written back is the block of ONE function of the arguments: the normalised array, the means as a column,
  the variances as a column. The channel c is covered by point c / 16, so the sixteen blocks fill each array.
-/
import proofs.«110882_g2000100512545763_pallasbulk_79_2_alg».proof.Proof.FusedValueBlock
import proofs.«110882_g2000100512545763_pallasbulk_79_2_alg».proof.Proof.FusedValueReads

noncomputable section

open scoped BigOperators

open Idealize.ShloMosaic Idealize.ShloMosaic.TcCoe Idealize.SL.Sem Idealize.ShloMosaic.ValueIdx
open Idealize.ShloMosaic.Pipeline (Dat)

namespace Cert.KernelIdeal.FusedValue

open Cert.KernelIdeal Cert.KernelIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl

/-- The batch means as a column of 256 rows. -/
def meanCol (X : Cert.BatchStats.A3.Idx → EReal) : S256x1.Idx → EReal := fun i => Cert.BatchStats.mean X (i 0)
/-- The batch variances as a column of 256 rows. -/
def varCol (X : Cert.BatchStats.A3.Idx → EReal) : S256x1.Idx → EReal := fun i => Cert.BatchStats.var X (i 0)

/-! ## One point's block, over a block that is channels 16p .. 16p + 15 of an array X -/

section Block

variable (X : Cert.BatchStats.A3.Idx → EReal) (w b : Cert.BatchStats.C1.Idx → EReal) (p : Nat) (hp : p < 16)
  (x0 : Vec Ideal S32x16x4096 .f32) (x1 x2 : Vec Ideal S16x1 .f32)
  (h0 : ∀ (n : Fin 32) (r : Fin 16) (j : Fin 4096), x0 (ix3 n r j) = X (ix3 n (chan p hp r) j))
  (h1 : ∀ r : Fin 16, x1 (ix2 r (0 : Fin 1)) = w (ix1 (chan p hp r)))
  (h2 : ∀ r : Fin 16, x2 (ix2 r (0 : Fin 1)) = b (ix1 (chan p hp r)))

include h0 in
/-- Row r's sum is channel 16p + r's sum over the whole array. -/
theorem rowSum_eq (r : Fin 16) : rowSum x0 r = Cert.BatchStats.chanSum X (chan p hp r) := by
  unfold rowSum Cert.BatchStats.chanSum
  exact Finset.sum_congr rfl fun n _ => Finset.sum_congr rfl fun j _ => h0 n r j

include h0 in
/-- Row r's sum of squares is channel 16p + r's. -/
theorem rowSumSq_eq (r : Fin 16) : rowSumSq x0 r = Cert.BatchStats.chanSumSq X (chan p hp r) := by
  unfold rowSumSq Cert.BatchStats.chanSumSq
  exact Finset.sum_congr rfl fun n _ => Finset.sum_congr rfl fun j _ => by rw [h0 n r j]

include h0 h1 h2 in
/-- The stored block at an entry is the normalised array at the entry 16p channels further. -/
theorem y_block (y : S32x16x4096.Idx) (i : S32x256x4096.Idx)
    (hi0 : (i 0).val = (y 0).val) (hi1 : (i 1).val = 16 * p + (y 1).val) (hi2 : (i 2).val = (y 2).val) :
    k0_pay4 (F := Ideal) x0 x1 x2 y = Cert.BatchStats.normalized X w b i := by
  obtain ⟨n, r, j, rfl⟩ : ∃ (n : Fin 32) (r : Fin 16) (j : Fin 4096), y = ix3 n r j := ⟨y 0, y 1, y 2, eq_ix3 y⟩
  obtain rfl : i = ix3 n (chan p hp r) j := funext fun a => by
    match a with
    | ⟨0, _⟩ => exact Fin.ext hi0
    | ⟨1, _⟩ => exact Fin.ext hi1
    | ⟨2, _⟩ => exact Fin.ext hi2
  rw [pay4_apply, Cert.BatchStats.normalized_ix3, h0 n r j, h1 r, h2 r, rowSum_eq X p hp x0 h0 r, rowSumSq_eq X p hp x0 h0 r]
  rfl

include h0 in
/-- The stored means at a row are the column of means 16p rows further. -/
theorem mean_block (y : S16x1.Idx) (i : S256x1.Idx) (hi0 : (i 0).val = 16 * p + (y 0).val) :
    k0_pay5 (F := Ideal) x0 y = meanCol X i := by
  obtain ⟨r, u, rfl⟩ : ∃ (r : Fin 16) (u : Fin 1), y = ix2 r u := ⟨y 0, y 1, eq_ix2 y⟩
  have e : (i 0 : Fin 256) = chan p hp r := Fin.ext hi0
  rw [pay5_apply, rowSum_eq X p hp x0 h0 r]
  show Cert.BatchStats.meanOf (Cert.BatchStats.chanSum X (chan p hp r)) = Cert.BatchStats.mean X (i 0)
  rw [e]
  rfl

include h0 in
/-- The stored variances at a row are the column of variances 16p rows further. -/
theorem var_block (y : S16x1.Idx) (i : S256x1.Idx) (hi0 : (i 0).val = 16 * p + (y 0).val) :
    k0_pay6 (F := Ideal) x0 y = varCol X i := by
  obtain ⟨r, u, rfl⟩ : ∃ (r : Fin 16) (u : Fin 1), y = ix2 r u := ⟨y 0, y 1, eq_ix2 y⟩
  have e : (i 0 : Fin 256) = chan p hp r := Fin.ext hi0
  rw [pay6_apply, rowSum_eq X p hp x0 h0 r, rowSumSq_eq X p hp x0 h0 r]
  show Cert.BatchStats.varOf (Cert.BatchStats.chanSum X (chan p hp r)) (Cert.BatchStats.chanSumSq X (chan p hp r)) = Cert.BatchStats.var X (i 0)
  rw [e]
  rfl

end Block

/-! ## What each point writes back -/

variable (m : (ℓ : Loc nD τ sig) → Buf (Elt Ideal) ℓ)

/-- The normalised array of the arguments, positions flattened. -/
def normArr (c : Dev nD) : S32x256x4096.Idx → EReal :=
  Cert.BatchStats.normalized (Cert.BatchStats.flat (m ((c : Thread nD τ).loc main_arg0)))
    (m ((c : Thread nD τ).loc main_arg1)) (m ((c : Thread nD τ).loc main_arg2))
/-- The column of batch means of the first argument. -/
def meanArr (c : Dev nD) : S256x1.Idx → EReal := meanCol (Cert.BatchStats.flat (m ((c : Thread nD τ).loc main_arg0)))
/-- The column of batch variances of the first argument. -/
def varArr (c : Dev nD) : S256x1.Idx → EReal := varCol (Cert.BatchStats.flat (m ((c : Thread nD τ).loc main_arg0)))

/-- Point t writes back block t of the normalised array. -/
theorem flushed3_eq (c : Dev nD) (t : Fin cfg0.N) :
    (dats m 0 c).flushed 3 t = ((cfg0.win 3).blk t).view.read (Elt Ideal) (normArr m c) := by
  show (cfg0.win 3).cut (grid0.coords t) ((dats m 0 c).after 3 t) = _
  rw [after0_3]
  unfold out0_3
  rw [View.canon_unit_zero hz3]
  simp only [View.ld_unit_zero (S := S32x16x4096) hz3, View.ld_unit_zero (S := S16x1) hz2]
  obtain ⟨-, -, -, ⟨e0, e1, e2⟩, -⟩ := idx_facts t
  funext y
  rw [View.read_apply]
  refine y_block _ _ _ t.val (point_lt t) (iblk m c 0 t) (iblk m c 1 t) (iblk m c 2 t) (block_x m c t) (block_w m c t) (block_b m c t)
    ((cfg0.win 3).xinj (grid0.coords t) y) (((cfg0.win 3).blk t).view.emb y) ?_ ?_ ?_
  · show win0_3.index t (0 : Fin 3) * 32 + 1 * (y 0).val = (y 0).val
    rw [e0]; omega
  · show win0_3.index t (1 : Fin 3) * 16 + 1 * (y 1).val = 16 * t.val + (y 1).val
    rw [e1]; omega
  · show win0_3.index t (2 : Fin 3) * 4096 + 1 * (y 2).val = (y 2).val
    rw [e2]; omega

/-- Point t writes back block t of the column of means. -/
theorem flushed4_eq (c : Dev nD) (t : Fin cfg0.N) :
    (dats m 0 c).flushed 4 t = ((cfg0.win 4).blk t).view.read (Elt Ideal) (meanArr m c) := by
  show (cfg0.win 4).cut (grid0.coords t) ((dats m 0 c).after 4 t) = _
  rw [after0_4]
  unfold out0_4
  rw [View.canon_unit_zero hz2]
  simp only [View.ld_unit_zero (S := S32x16x4096) hz3]
  obtain ⟨-, -, -, -, ⟨e0, e1⟩, -⟩ := idx_facts t
  funext y
  rw [View.read_apply]
  refine mean_block _ t.val (point_lt t) (iblk m c 0 t) (block_x m c t)
    ((cfg0.win 4).xinj (grid0.coords t) y) (((cfg0.win 4).blk t).view.emb y) ?_
  show win0_4.index t (0 : Fin 2) * 16 + 1 * (y 0).val = 16 * t.val + (y 0).val
  rw [e0]; omega

/-- Point t writes back block t of the column of variances. -/
theorem flushed5_eq (c : Dev nD) (t : Fin cfg0.N) :
    (dats m 0 c).flushed 5 t = ((cfg0.win 5).blk t).view.read (Elt Ideal) (varArr m c) := by
  show (cfg0.win 5).cut (grid0.coords t) ((dats m 0 c).after 5 t) = _
  rw [after0_5]
  unfold out0_5
  rw [View.canon_unit_zero hz2]
  simp only [View.ld_unit_zero (S := S32x16x4096) hz3]
  obtain ⟨-, -, -, -, -, ⟨e0, e1⟩⟩ := idx_facts t
  funext y
  rw [View.read_apply]
  refine var_block _ t.val (point_lt t) (iblk m c 0 t) (block_x m c t)
    ((cfg0.win 5).xinj (grid0.coords t) y) (((cfg0.win 5).blk t).view.emb y) ?_
  show win0_5.index t (0 : Fin 2) * 16 + 1 * (y 0).val = 16 * t.val + (y 0).val
  rw [e0]; omega

/-! ## The blocks fill the arrays -/

/-- An index of the big array is in point t's block iff each coordinate is in the block's range on its axis. -/
theorem mem_blk3 (t : Fin cfg0.N) (i : S32x256x4096.Idx) :
    i ∈ ((cfg0.win 3).blk t).view.set ↔ ∀ a : Fin 3, win0_3.index t a * S32x16x4096.size a ≤ (i a).val ∧ (i a).val < win0_3.index t a * S32x16x4096.size a + S32x16x4096.size a := by
  show i ∈ ((View.whole main_v3_0).slice (win0_3.rect t)).set ↔ _
  rw [View.set_slice_whole, Rect.mem_set_unit]
  exact Iff.rfl

theorem mem_blk4 (t : Fin cfg0.N) (i : S256x1.Idx) :
    i ∈ ((cfg0.win 4).blk t).view.set ↔ ∀ a : Fin 2, win0_4.index t a * S16x1.size a ≤ (i a).val ∧ (i a).val < win0_4.index t a * S16x1.size a + S16x1.size a := by
  show i ∈ ((View.whole main_v3_1).slice (win0_4.rect t)).set ↔ _
  rw [View.set_slice_whole, Rect.mem_set_unit]
  exact Iff.rfl

theorem mem_blk5 (t : Fin cfg0.N) (i : S256x1.Idx) :
    i ∈ ((cfg0.win 5).blk t).view.set ↔ ∀ a : Fin 2, win0_5.index t a * S16x1.size a ≤ (i a).val ∧ (i a).val < win0_5.index t a * S16x1.size a + S16x1.size a := by
  show i ∈ ((View.whole main_v3_2).slice (win0_5.rect t)).set ↔ _
  rw [View.set_slice_whole, Rect.mem_set_unit]
  exact Iff.rfl

/-- The point whose block holds channel (or row) q: q / 16. -/
def pointOf (q : Nat) (hq : q < 256) : Fin cfg0.N := ⟨q / 16, Nat.lt_of_lt_of_eq (by omega) N_0.symm⟩

theorem pointOf_val (q : Nat) (hq : q < 256) : (pointOf q hq).val = q / 16 := rfl

/-- Every index of the big array is in the block of the point its channel belongs to. -/
theorem cover3 (i : S32x256x4096.Idx) : ∃ t : Fin cfg0.N, (cfg0.win 3).flush t = true ∧ i ∈ ((cfg0.win 3).blk t).view.set := by
  have h0 : (i 0).val < 32 := (i 0).isLt
  have h1 : (i 1).val < 256 := (i 1).isLt
  have h2 : (i 2).val < 4096 := (i 2).isLt
  refine ⟨pointOf (i 1).val h1, flush0_3 _, ?_⟩
  obtain ⟨-, -, -, ⟨e0, e1, e2⟩, -⟩ := idx_facts (pointOf (i 1).val h1)
  rw [pointOf_val] at e1
  rw [mem_blk3]
  intro a
  match a with
  | ⟨0, _⟩ => show win0_3.index (pointOf (i 1).val h1) (0 : Fin 3) * 32 ≤ (i 0).val ∧ (i 0).val < win0_3.index (pointOf (i 1).val h1) (0 : Fin 3) * 32 + 32; rw [e0]; omega
  | ⟨1, _⟩ => show win0_3.index (pointOf (i 1).val h1) (1 : Fin 3) * 16 ≤ (i 1).val ∧ (i 1).val < win0_3.index (pointOf (i 1).val h1) (1 : Fin 3) * 16 + 16; rw [e1]; omega
  | ⟨2, _⟩ => show win0_3.index (pointOf (i 1).val h1) (2 : Fin 3) * 4096 ≤ (i 2).val ∧ (i 2).val < win0_3.index (pointOf (i 1).val h1) (2 : Fin 3) * 4096 + 4096; rw [e2]; omega

theorem cover4 (i : S256x1.Idx) : ∃ t : Fin cfg0.N, (cfg0.win 4).flush t = true ∧ i ∈ ((cfg0.win 4).blk t).view.set := by
  have h0 : (i 0).val < 256 := (i 0).isLt
  have h1 : (i 1).val < 1 := (i 1).isLt
  refine ⟨pointOf (i 0).val h0, flush0_4 _, ?_⟩
  obtain ⟨-, -, -, -, ⟨e0, e1⟩, -⟩ := idx_facts (pointOf (i 0).val h0)
  rw [pointOf_val] at e0
  rw [mem_blk4]
  intro a
  match a with
  | ⟨0, _⟩ => show win0_4.index (pointOf (i 0).val h0) (0 : Fin 2) * 16 ≤ (i 0).val ∧ (i 0).val < win0_4.index (pointOf (i 0).val h0) (0 : Fin 2) * 16 + 16; rw [e0]; omega
  | ⟨1, _⟩ => show win0_4.index (pointOf (i 0).val h0) (1 : Fin 2) * 1 ≤ (i 1).val ∧ (i 1).val < win0_4.index (pointOf (i 0).val h0) (1 : Fin 2) * 1 + 1; rw [e1]; omega

theorem cover5 (i : S256x1.Idx) : ∃ t : Fin cfg0.N, (cfg0.win 5).flush t = true ∧ i ∈ ((cfg0.win 5).blk t).view.set := by
  have h0 : (i 0).val < 256 := (i 0).isLt
  have h1 : (i 1).val < 1 := (i 1).isLt
  refine ⟨pointOf (i 0).val h0, flush0_5 _, ?_⟩
  obtain ⟨-, -, -, -, -, ⟨e0, e1⟩⟩ := idx_facts (pointOf (i 0).val h0)
  rw [pointOf_val] at e0
  rw [mem_blk5]
  intro a
  match a with
  | ⟨0, _⟩ => show win0_5.index (pointOf (i 0).val h0) (0 : Fin 2) * 16 ≤ (i 0).val ∧ (i 0).val < win0_5.index (pointOf (i 0).val h0) (0 : Fin 2) * 16 + 16; rw [e0]; omega
  | ⟨1, _⟩ => show win0_5.index (pointOf (i 0).val h0) (1 : Fin 2) * 1 ≤ (i 1).val ∧ (i 1).val < win0_5.index (pointOf (i 0).val h0) (1 : Fin 2) * 1 + 1; rw [e1]; omega

/-! ## The three arrays after the grid -/

/-- The big result array ends holding the normalised array. -/
theorem final3 (c : Dev nD) : (dats m 0 c).arrAt 3 cfg0.N = normArr m c :=
  (dats m 0 c).arrAt_eq_of_cover 3 (normArr m c) (fun t _ => flushed3_eq m c t) cover3

/-- The second result array ends holding the column of means. -/
theorem final4 (c : Dev nD) : (dats m 0 c).arrAt 4 cfg0.N = meanArr m c :=
  (dats m 0 c).arrAt_eq_of_cover 4 (meanArr m c) (fun t _ => flushed4_eq m c t) cover4

/-- The third result array ends holding the column of variances. -/
theorem final5 (c : Dev nD) : (dats m 0 c).arrAt 5 cfg0.N = varArr m c :=
  (dats m 0 c).arrAt_eq_of_cover 5 (varArr m c) (fun t _ => flushed5_eq m c t) cover5

end Cert.KernelIdeal.FusedValue

end
-- ==== Proof.FusedValueTail.lean ====
/-
  The host operations after the grid, read off the three arrays the grid leaves.

  After the fused kernel the program folds the normalised array's positions back into a 64 x 64 grid, lays the two
  columns of statistics down as vectors of 256, and moves each running statistic a tenth of the way to the batch's:
  new = old + step * (batch - old), the step kept as its word. Written here: each of the three results as those
  operations applied to the arrays the grid leaves (whatever they are), the running statistics being read as they
  were launched; and the step at one channel.
-/
import proofs.«110882_g2000100512545763_pallasbulk_79_2_alg».proof.Proof.Gen.KernelIdeal.Frame
import proofs.«110882_g2000100512545763_pallasbulk_79_2_alg».proof.Proof.BatchStats
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.FusedValue

open Cert.KernelIdeal Cert.KernelIdeal.Gen

variable (m : (ℓ : Loc nD τ sig) → Buf (Elt Ideal) ℓ)

/-- An `a x 1` column laid down as a vector of `a` entries: the vector's entry q is the column's entry (q, 0). -/
theorem vector_of_column {α : Type} {a : Nat} (v : (⟨2, ![a, 1]⟩ : Shape).Idx → α)
    (h : (⟨2, ![a, 1]⟩ : Shape).ShapeCasts ⟨1, ![a]⟩) (q : Fin a) :
    shapeCast ⟨1, ![a]⟩ v h (ix1 q) = v (ix2 q (0 : Fin 1)) :=
  shapeCast_apply v h (ix1 q) (ix2 q (0 : Fin 1)) (by
    rw [Shape.rowMajor_val_two, Shape.rowMajor_val_one]
    show q.val * 1 + 0 = q.val
    omega)

/-! ## The arrays the tail reads -/

/-- The tail finds the grid's first result array as the grid left it. -/
theorem tail_reads3 (c : Dev nD) :
    Pipeline.withArrays (cfgs 0).spec c (V0 m c) (fun w => (dats m 0 c).arrAt w (cfgs 0).N) (Proc.devRef .tc main_v3_0)
      = (dats m 0 c).arrAt 3 cfg0.N :=
  Pipeline.withArrays_arr spec0 launch0.win.arr_inj c _ _ 3

theorem tail_reads4 (c : Dev nD) :
    Pipeline.withArrays (cfgs 0).spec c (V0 m c) (fun w => (dats m 0 c).arrAt w (cfgs 0).N) (Proc.devRef .tc main_v3_1)
      = (dats m 0 c).arrAt 4 cfg0.N :=
  Pipeline.withArrays_arr spec0 launch0.win.arr_inj c _ _ 4

theorem tail_reads5 (c : Dev nD) :
    Pipeline.withArrays (cfgs 0).spec c (V0 m c) (fun w => (dats m 0 c).arrAt w (cfgs 0).N) (Proc.devRef .tc main_v3_2)
      = (dats m 0 c).arrAt 5 cfg0.N :=
  Pipeline.withArrays_arr spec0 launch0.win.arr_inj c _ _ 5

/-- The tail finds the running mean as launched: no window stages it and nothing before the grid writes it. -/
theorem tail_reads_arg3 (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne _ c (V0 m c) _ main_arg3 (by exact (by decide : ∀ w, Pipeline.arrRef spec0 w ≠ main_arg3))).trans
    (V_main_arg3 m c)

/-- The tail finds the running variance as launched. -/
theorem tail_reads_arg4 (c : Dev nD) :
    Pipeline.withArrays (cfgs 0).spec c (V0 m c) (fun w => (dats m 0 c).arrAt w (cfgs 0).N) (Proc.devRef .tc main_arg4)
      = m ((c : Thread nD τ).loc main_arg4) :=
  (Pipeline.withArrays_of_ne _ c (V0 m c) _ main_arg4 (by exact (by decide : ∀ w, Pipeline.arrRef spec0 w ≠ main_arg4))).trans
    (V_main_arg4 m c)

/-! ## The three results -/

/-- The running-statistic step on whole vectors: old + step * (column laid down - old). -/
def stepped (old : S256.Idx → EReal) (col : S256x1.Idx → EReal) : S256.Idx → EReal :=
  addf old (mulf (broadcastInDim S256 ![] bcast_S_S256 (constant (F := Ideal) S_ .f32 0x3DCCCCCD#32))
    (subf (shapeCast S256 col shapeCasts_S256x1_S256) old))

/-- The step at channel q. -/
theorem stepped_apply (old : S256.Idx → EReal) (col : S256x1.Idx → EReal) (q : Fin 256) :
    stepped old col (ix1 q) = old (ix1 q) + Cert.BatchStats.momentum * (col (ix2 q (0 : Fin 1)) - old (ix1 q)) := by
  show old (ix1 q) + Ideal.ofBits .f32 0x3DCCCCCD#32 * (shapeCast S256 col shapeCasts_S256x1_S256 (ix1 q) - old (ix1 q)) = _
  rw [vector_of_column]
  rfl

/-- The first result: the grid's first array with its positions folded back. -/
theorem tail_v4 (c : Dev nD) :
    Pipeline.afterTail₀ cfgs (dats m) 0 (V0 m) [hostOps1] c main_v4
      = shapeCast S32x256x64x64 ((dats m 0 c).arrAt 3 cfg0.N : S32x256x4096.Idx → EReal) shapeCasts_S32x256x4096_S32x256x64x64 := by
  unfold Pipeline.afterTail₀
  show StableHlo.after hostOps1 _ (Proc.devRef .tc main_v4) = _
  after_results
  rw [tail_reads3]
  rfl

/-- The second result: the running mean stepped towards the grid's second array. -/
theorem tail_v10 (c : Dev nD) :
    Pipeline.afterTail₀ cfgs (dats m) 0 (V0 m) [hostOps1] c main_v10
      = stepped (m ((c : Thread nD τ).loc main_arg3)) ((dats m 0 c).arrAt 4 cfg0.N) := by
  unfold Pipeline.afterTail₀
  show StableHlo.after hostOps1 _ (Proc.devRef .tc main_v10) = _
  after_results
  rw [tail_reads4, tail_reads_arg3]
  rfl

/-- The third result: the running variance stepped towards the grid's third array. -/
theorem tail_v14 (c : Dev nD) :
    Pipeline.afterTail₀ cfgs (dats m) 0 (V0 m) [hostOps1] c main_v14
      = stepped (m ((c : Thread nD τ).loc main_arg4)) ((dats m 0 c).arrAt 5 cfg0.N) := by
  unfold Pipeline.afterTail₀
  show StableHlo.after hostOps1 _ (Proc.devRef .tc main_v14) = _
  after_results
  rw [tail_reads5, tail_reads_arg4]
  rfl

end Cert.KernelIdeal.FusedValue

end
-- ==== Proof.FusedValue.lean ====
/-
  The value of the fused batch-normalisation program.

  The program flattens the positions of its first argument, stands the weights and biases up as columns, runs the
  fused kernel over 16 blocks of 16 channels, folds the normalised array's positions back and steps the two running
  statistics. The grid leaves the normalised array, the column of batch means and the column of batch variances
  (each block written back is a block of that one function of the arguments, and the blocks fill the arrays); the
  host operations after the grid turn these into the three results: the normalised array folded back, and each
  running statistic moved a tenth of the way to the batch's. The five arguments end as they were launched.
-/
import proofs.«110882_g2000100512545763_pallasbulk_79_2_alg».proof.Proof.FusedValueArrays
import proofs.«110882_g2000100512545763_pallasbulk_79_2_alg».proof.Proof.FusedValueTail

noncomputable section

open Idealize.ShloMosaic Idealize.ShloMosaic.TcCoe Idealize.SL.Sem Idealize.ShloMosaic.ValueIdx
open Idealize.ShloMosaic.Pipeline (Dat)

namespace Cert.KernelIdeal.FusedValue

open Cert.KernelIdeal Cert.KernelIdeal.Gen

variable (m : (ℓ : Loc nD τ sig) → Buf (Elt Ideal) ℓ) (ρ : Dev nD → PrngReg)

/-- The first result is the normalised array of the arguments, positions folded back. -/
theorem result_y (c : Dev nD) :
    Pipeline.afterTail₀ cfgs (dats m) 0 (V0 m) [hostOps1] c main_v4
      = Cert.BatchStats.outY (m ((c.tc : Thread nD τ).loc main_arg0)) (m ((c.tc : Thread nD τ).loc main_arg1))
          (m ((c.tc : Thread nD τ).loc main_arg2)) :=
  (tail_v4 m c).trans (congrArg Cert.BatchStats.unflat (final3 m c))

/-- The second result is the running mean stepped towards the batch means. -/
theorem result_mean (c : Dev nD) :
    Pipeline.afterTail₀ cfgs (dats m) 0 (V0 m) [hostOps1] c main_v10
      = Cert.BatchStats.outMean (m ((c.tc : Thread nD τ).loc main_arg0)) (m ((c.tc : Thread nD τ).loc main_arg3)) := by
  rw [tail_v10, final4]
  funext i
  obtain ⟨q, rfl⟩ : ∃ q : Fin 256, i = ix1 q := ⟨i 0, eq_ix1 i⟩
  rw [stepped_apply]
  rfl

/-- The third result is the running variance stepped towards the batch variances. -/
theorem result_var (c : Dev nD) :
    Pipeline.afterTail₀ cfgs (dats m) 0 (V0 m) [hostOps1] c main_v14
      = Cert.BatchStats.outVar (m ((c.tc : Thread nD τ).loc main_arg0)) (m ((c.tc : Thread nD τ).loc main_arg4)) := by
  rw [tail_v14, final5]
  funext i
  obtain ⟨q, rfl⟩ : ∃ q : Fin 256, i = ix1 q := ⟨i 0, eq_ix1 i⟩
  rw [stepped_apply]
  rfl

/-- THE RUN: every fair execution of the program on the TensorCores terminates with the three results at the three
    functions of the arguments and the five arguments unchanged. -/
theorem run : θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v4) = Cert.BatchStats.outY (m ((c.tc : Thread nD τ).loc main_arg0)) (m ((c.tc : Thread nD τ).loc main_arg1)) (m ((c.tc : Thread nD τ).loc main_arg2))
      ∧ r.2.mem ((c.tc : Thread nD τ).loc main_v10) = Cert.BatchStats.outMean (m ((c.tc : Thread nD τ).loc main_arg0)) (m ((c.tc : Thread nD τ).loc main_arg3))
      ∧ r.2.mem ((c.tc : Thread nD τ).loc main_v14) = Cert.BatchStats.outVar (m ((c.tc : Thread nD τ).loc main_arg0)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v4 (Pipeline.mem_restRefs_of main_v4 (by decide) (by decide))).trans (result_y m c),
      ((h c).2 main_v10 (Pipeline.mem_restRefs_of main_v10 (by decide) (by decide))).trans (result_mean m c),
      ((h c).2 main_v14 (Pipeline.mem_restRefs_of main_v14 (by decide) (by decide))).trans (result_var m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.FusedValue

end
-- ==== Proof.NormRegion.lean ====
/-
  The normalising region of the reference: over a grid of 32 x 4 points, point (n, k) reads the block
  [1, 256, 1024] of the input array at (n, 0, k), the whole [256, 1] column of per-channel scales and the
  whole [256, 1] column of per-channel shifts, and writes the block of the output array at (n, 0, k) with
  every entry times its channel's scale plus its channel's shift. This module gives the region's proof
  data at an arbitrary contents `V` of the core's buffers on entry, and the body's triple at every point.
-/
import proofs.«110882_g2000100512545763_pallasbulk_79_2_alg».proof.Proof.Gen.ReferenceIdeal.Launch
import proofs.«110882_g2000100512545763_pallasbulk_79_2_alg».proof.Proof.Gen.ReferenceIdeal.Skeleton
import proofs.«110882_g2000100512545763_pallasbulk_79_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Norm

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each of the core's buffers holds at the moment the region starts
variable (V : (c : Dev nD) → (b : Ref sig .tc) → Buf (Elt F) ((c : Thread nD τ).loc b))

/-! ## The windows' blocks -/

/-- The part of window `w`'s array that point `t` works on, taken from the contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether or not it is fetched there
    (an unfetched window's block index has not moved since the point that fetched it), for any proof data whose
    array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_x : Rect S1x256x1024 := Rect.unit (s := S1x256x1024) ![0, 0, 0] S1x256x1024.size inb_S1x256x1024_S1x256x1024_0_0_0
abbrev r1_c : Rect S256x1 := Rect.unit (s := S256x1) ![0, 0] S256x1.size inb_S256x1_S256x1_0_0

/-! ## What the body leaves in the output window's buffer -/

/-- The output's staging buffer after the body, from the three input blocks: its one whole-block store. -/
def out1_3 (x0 : Vec F S1x256x1024 .f32) (x1 : Vec F S256x1 .f32) (x2 : Vec F S256x1 .f32) : Vec F S1x256x1024 .f32 :=
  View.canon [⟨r1_x, k1_pay1 (View.ld x0 r1_x) (View.ld x1 r1_c) (View.ld x2 r1_c)⟩]

/-- The one store covers the buffer. -/
theorem cover1_3 (p0 : Vec F S1x256x1024 .f32) (y : S1x256x1024.Idx) :
    ∃ pc ∈ ([⟨r1_x, p0⟩] : List (View.Piece (Elt F) S1x256x1024 .f32)), y ∈ pc.1.set :=
  View.cover_of_tiled [⟨r1_x, p0⟩] S1x256x1024.size (by rfl) y

/-! ## The body's triple -/

set_option maxHeartbeats 1000000 in
/-- Given the three input buffers whole at `x0 x1 x2` and the output buffer whole at any contents, the body
    terminates leaving the inputs untouched and the output at `out1_3 x0 x1 x2`: three loads, one load whose
    value is unused, and one store of the payload over the whole output buffer. -/
theorem sound_kernel1 (c : Dev nD) (E : Set ℕ) (i : grid1.Coords)
    (arg0 : Memref sig .tc .vmem S1x256x1024 .f32) (harg0 : arg0.IsWhole) (arg1 : Memref sig .tc .vmem S256x1 .f32) (harg1 : arg1.IsWhole)
    (arg2 : Memref sig .tc .vmem S256x1 .f32) (harg2 : arg2.IsWhole) (arg3 : Memref sig .tc .vmem S1x256x1024 .f32) (harg3 : arg3.IsWhole)
    (x0 : Vec F S1x256x1024 .f32) (x1 : Vec F S256x1 .f32) (x2 : Vec F S256x1 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__norm_kernel i arg0 harg0 arg1 harg1 arg2 harg2 arg3 harg3) K := by
  simp only [cc1__norm_kernel_eq_skeleton]; unfold cc1__norm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

/-- What is tracked through the region on core `c`. The four arrays start at `V`. At point `t` the body leaves
    the three input buffers at the blocks they were given and the output buffer at `out1_3` of those blocks.
    Beside the windows only the scoped rest and the generator register are carried, unchanged; every buffer is
    held at full share and no transfer is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- Each window's array starts at what `V` holds for it. -/
theorem A_eq1 (c : Dev nD) (w : Fin cfg1.W) : (dat1 V c).A w = V c (Pipeline.arrRef spec1 w) := by
  dsimp only [dat1]

/-- The buffer of each window after the body at point `t`, one equation per window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- So when the body starts at point `t` each of the three input buffers holds its block, also at the points
    where the two columns are not fetched again. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- The resources the body starts from at point `t`: the invariant, the debts, and each window's current buffer
    at its contents before the body. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- The resources it ends with: the same, each buffer now at its contents after the body. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- At every point the body takes the first resources to the second: the input buffers hold their blocks, the
    kernel's triple turns the output buffer into `out1_3` of them, and the invariant and the debts are framed
    around it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The same with the four windows gathered into one iterated conjunction: the form the pipeline's run asks for. -/
theorem body_obligation1 (c : Dev nD) : BodyObligation (dat1 (F := F) V c) (defs₀ (F := F)) Variants.none () Set.univ := fun t => by
  rw [bigSep_W1, bigSep_W1]
  exact sound_body1 V c t

/-! ## The input arrays are not written -/

/-- No write-back touches an input window's array: it ends as the region found it. -/
theorem norm_in (c : Dev nD) (w : Fin cfg1.W) (hw : w ≠ 3) : (dat1 V c).arrAt w cfg1.N = V c (Pipeline.arrRef spec1 w) := by
  have hin : (cfg1.win w).isOut = false := by
    match w, hw with
    | ⟨0, _⟩, _ => rfl
    | ⟨1, _⟩, _ => rfl
    | ⟨2, _⟩, _ => rfl
    | ⟨3, _⟩, h => exact absurd rfl h
  exact ((dat1 V c).arrAt_in w hin cfg1.N).trans (A_eq1 V c w)

end Cert.ReferenceIdeal.Norm

end
-- ==== Proof.StatsRegion.lean ====
/-
  The statistics region of the reference program: a grid of 32 x 4 = 128 points, point t = (t / 4, t % 4), whose body
  carries two 256 x 1024 accumulators from point to point. At the first point both are set to the zero word; at every
  point the loaded 256 x 1024 block of the input (batch entry t / 4, positions (t % 4) * 1024 ..) is added to the first
  and its entrywise square to the second; at the last point each accumulator's 1024 lanes are summed into the
  corresponding 256 x 1 output, the only point at which the outputs are stored and written back.

  This module states the region at arbitrary entry contents `V` of the core's buffers: the accumulators' contents
  after each point by recursion on the point (`acc`, `accsq`), the invariant that names them (`PhiS`), the body's
  triple in each of its three cases (first point, a middle point, last point), the proof data `dat0`, and the body
  obligation. Everything is generic in the float model.
-/
import proofs.«110882_g2000100512545763_pallasbulk_79_2_alg».proof.Proof.Gen.ReferenceIdeal.Launch
import proofs.«110882_g2000100512545763_pallasbulk_79_2_alg».proof.Proof.Gen.ReferenceIdeal.Skeleton
import proofs.«110882_g2000100512545763_pallasbulk_79_2_alg».proof.Proof.Gen.ReferenceIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Stats

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access, however many axes. -/
theorem hz2 : (![0, 0] : Fin 2 → ℕ) = fun _ => 0 := by funext a; fin_cases a <;> rfl
theorem hz3 : (![0, 0, 0] : Fin 3 → ℕ) = fun _ => 0 := by funext a; fin_cases a <;> rfl

section Whole
variable {S : Shape} {e : EltTy} {off : Fin S.rank → ℕ}

/-- A store through the whole-shape rectangle, made last, is what the buffer then reads, whatever was stored before. -/
theorem read_store_whole (v : View sig .tc .vmem S e) (f : v.ty.Contents (Elt F)) (hz : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero hz inb y⟩)).trans
    (View.canon_cons_unit_zero hz inb w L)

/-- A load through the whole-shape rectangle of a whole memref at contents `X` reads `X`. -/
theorem load_whole (m : Memref sig .tc .vmem S e) (h : m.IsWhole) (hz : off = fun _ => 0)
    (inb : ∀ a, off a + S.size a ≤ S.size a) (X : S.Idx → Elt F e) :
    View.readAt (Elt F) m.view (Rect.unit off S.size inb).toLoadRect (h.unread X) = X := by
  rw [View.readAt_eq_ld, h.read_unread]; exact View.ld_unit_zero hz inb X

/-- A load through it right after one store through it reads the store's payload. -/
theorem load_store_whole (v : View sig .tc .vmem S e) (hz : off = fun _ => 0)
    (inb : ∀ a, off a + S.size a ≤ S.size a) (w : S.Idx → Elt F e) :
    v.readCov [(⟨Rect.unit off S.size inb, w⟩ : View.Piece (Elt F) S e)] (Rect.unit off S.size inb).toLoadRect = w :=
  View.readCov_unit_zero v hz inb w
end Whole

/-- The condition of the body's first branch (zero both accumulators), from the grid coordinates. -/
abbrev condFirst (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- The condition of its second branch (sum the accumulators' lanes into the outputs). -/
abbrev condLast (i : grid0.Coords) : Prop := k0_cond2 i = 1#1

set_option maxHeartbeats 1000000 in
theorem kernel_mid (c : Dev nD) (E : Set ℕ) (i : grid0.Coords)
    (arg2 : Memref sig .tc .vmem S1x256x1024 .f32) (harg2 : arg2.IsWhole) (arg3 : Memref sig .tc .vmem S256x1 .f32) (harg3 : arg3.IsWhole)
    (arg4 : Memref sig .tc .vmem S256x1 .f32) (harg4 : arg4.IsWhole) (arg5 : Memref sig .tc .vmem S256x1024 .f32) (harg5 : arg5.IsWhole)
    (arg6 : Memref sig .tc .vmem S256x1024 .f32) (harg6 : arg6.IsWhole)
    (hc1 : ¬ condFirst i) (hc2 : ¬ condLast i) (x0 : Vec F S1x256x1024 .f32) (a b : Vec F S256x1024 .f32) (K : PUnit → sProp 𝕄) :
    iprop(owns (c : Thread nD τ) arg2 fullShare x0 ∗ owns (c : Thread nD τ) arg5 fullShare a ∗ owns (c : Thread nD τ) arg6 fullShare b
        ∗ (iprop(owns (c : Thread nD τ) arg2 fullShare x0 ∗ owns (c : Thread nD τ) arg5 fullShare (k0_pay4 x0 a) ∗ owns (c : Thread nD τ) arg6 fullShare (k0_pay5 x0 b)) -∗ K ⟨⟩))
      ⊢ wp frame (wpE (defs₀ (F := F)) Variants.none c none) E (cc0__stats_kernel i arg2 harg2 arg3 harg3 arg4 harg4 arg5 harg5 arg6 harg6) K := by
  simp only [cc0__stats_kernel_eq_skeleton]; unfold cc0__stats_kernel_skel
  unfold owns
  iintro ⟨⟨%f0, %hf0, H0⟩, ⟨%f5, %hf5, H5⟩, ⟨%f6, %hf6, H6⟩, Hk⟩
  obtain rfl := harg2.eq_unread hf0; obtain rfl := harg5.eq_unread hf5; obtain rfl := harg6.eq_unread hf6
  sl_exec (disch := first | exact hc1 | exact hc2)
  sl_step
  iapply Hk
  isplitl [H0]
  · iexists _; isplitr; · ipureintro; exact harg2.read_unread _
    iexact H0
  isplitl [H5]
  · iexists _; isplitr
    swap; · iexact H5
    ipureintro
    exact (read_store_whole _ _ hz2 _ _ _).trans (congrArg₂ k0_pay4 (load_whole arg2 harg2 hz3 _ x0) (load_whole arg5 harg5 hz2 _ a))
  · iexists _; isplitr
    swap; · iexact H6
    ipureintro
    exact (read_store_whole _ _ hz2 _ _ _).trans (congrArg₂ k0_pay5 (load_whole arg2 harg2 hz3 _ x0) (load_whole arg6 harg6 hz2 _ b))

set_option maxHeartbeats 1000000 in
theorem kernel_first (c : Dev nD) (E : Set ℕ) (i : grid0.Coords)
    (arg2 : Memref sig .tc .vmem S1x256x1024 .f32) (harg2 : arg2.IsWhole) (arg3 : Memref sig .tc .vmem S256x1 .f32) (harg3 : arg3.IsWhole)
    (arg4 : Memref sig .tc .vmem S256x1 .f32) (harg4 : arg4.IsWhole) (arg5 : Memref sig .tc .vmem S256x1024 .f32) (harg5 : arg5.IsWhole)
    (arg6 : Memref sig .tc .vmem S256x1024 .f32) (harg6 : arg6.IsWhole)
    (hc1 : condFirst i) (hc2 : ¬ condLast i) (x0 : Vec F S1x256x1024 .f32) (K : PUnit → sProp 𝕄) :
    iprop(owns (c : Thread nD τ) arg2 fullShare x0 ∗ (∃ d, owns (c : Thread nD τ) arg5 fullShare d) ∗ (∃ d, owns (c : Thread nD τ) arg6 fullShare d)
        ∗ (iprop(owns (c : Thread nD τ) arg2 fullShare x0 ∗ owns (c : Thread nD τ) arg5 fullShare (k0_pay4 x0 k0_pay1) ∗ owns (c : Thread nD τ) arg6 fullShare (k0_pay5 x0 k0_pay2)) -∗ K ⟨⟩))
      ⊢ wp frame (wpE (defs₀ (F := F)) Variants.none c none) E (cc0__stats_kernel i arg2 harg2 arg3 harg3 arg4 harg4 arg5 harg5 arg6 harg6) K := by
  simp only [cc0__stats_kernel_eq_skeleton]; unfold cc0__stats_kernel_skel
  unfold owns
  iintro ⟨⟨%f0, %hf0, H0⟩, ⟨%d5, %f5, -, H5⟩, ⟨%d6, %f6, -, H6⟩, Hk⟩
  obtain rfl := harg2.eq_unread hf0
  sl_exec (disch := first | exact hc1 | exact hc2)
  sl_step
  iapply Hk
  isplitl [H0]
  · iexists _; isplitr; · ipureintro; exact harg2.read_unread _
    iexact H0
  isplitl [H5]
  · iexists _; isplitr
    swap; · iexact H5
    ipureintro
    sl_unfold_run_names
    exact (read_store_whole _ _ hz2 _ _ _).trans (congrArg₂ k0_pay4 (load_whole arg2 harg2 hz3 _ x0) (load_store_whole _ hz2 _ _))
  · iexists _; isplitr
    swap; · iexact H6
    ipureintro
    sl_unfold_run_names
    exact (read_store_whole _ _ hz2 _ _ _).trans (congrArg₂ k0_pay5 (load_whole arg2 harg2 hz3 _ x0) (load_store_whole _ hz2 _ _))

set_option maxHeartbeats 1000000 in
theorem kernel_last (c : Dev nD) (E : Set ℕ) (i : grid0.Coords)
    (arg2 : Memref sig .tc .vmem S1x256x1024 .f32) (harg2 : arg2.IsWhole) (arg3 : Memref sig .tc .vmem S256x1 .f32) (harg3 : arg3.IsWhole)
    (arg4 : Memref sig .tc .vmem S256x1 .f32) (harg4 : arg4.IsWhole) (arg5 : Memref sig .tc .vmem S256x1024 .f32) (harg5 : arg5.IsWhole)
    (arg6 : Memref sig .tc .vmem S256x1024 .f32) (harg6 : arg6.IsWhole)
    (hc1 : ¬ condFirst i) (hc2 : condLast i) (x0 : Vec F S1x256x1024 .f32) (a b : Vec F S256x1024 .f32) (K : PUnit → sProp 𝕄) :
    iprop(owns (c : Thread nD τ) arg2 fullShare x0 ∗ (∃ d, owns (c : Thread nD τ) arg3 fullShare d) ∗ (∃ d, owns (c : Thread nD τ) arg4 fullShare d) ∗ owns (c : Thread nD τ) arg5 fullShare a ∗ owns (c : Thread nD τ) arg6 fullShare b
        ∗ (iprop(owns (c : Thread nD τ) arg2 fullShare x0 ∗ owns (c : Thread nD τ) arg3 fullShare (k0_pay6 (k0_pay4 x0 a)) ∗ owns (c : Thread nD τ) arg4 fullShare (k0_pay7 (k0_pay5 x0 b)) ∗ owns (c : Thread nD τ) arg5 fullShare (k0_pay4 x0 a) ∗ owns (c : Thread nD τ) arg6 fullShare (k0_pay5 x0 b)) -∗ K ⟨⟩))
      ⊢ wp frame (wpE (defs₀ (F := F)) Variants.none c none) E (cc0__stats_kernel i arg2 harg2 arg3 harg3 arg4 harg4 arg5 harg5 arg6 harg6) K := by
  simp only [cc0__stats_kernel_eq_skeleton]; unfold cc0__stats_kernel_skel
  unfold owns
  iintro ⟨⟨%f0, %hf0, H0⟩, ⟨%d3, %f3, -, H3⟩, ⟨%d4, %f4, -, H4⟩, ⟨%f5, %hf5, H5⟩, ⟨%f6, %hf6, H6⟩, Hk⟩
  obtain rfl := harg2.eq_unread hf0; obtain rfl := harg5.eq_unread hf5; obtain rfl := harg6.eq_unread hf6
  sl_exec (disch := first | exact hc1 | exact hc2)
  sl_step
  iapply Hk
  isplitl [H0]
  · iexists _; isplitr; · ipureintro; exact harg2.read_unread _
    iexact H0
  isplitl [H3]
  · iexists _; isplitr
    swap; · iexact H3
    ipureintro
    sl_unfold_run_names
    exact (read_store_whole _ _ hz2 _ _ _).trans (congrArg k0_pay6 ((load_store_whole _ hz2 _ _).trans
      (congrArg₂ k0_pay4 (load_whole arg2 harg2 hz3 _ x0) (load_whole arg5 harg5 hz2 _ a))))
  isplitl [H4]
  · iexists _; isplitr
    swap; · iexact H4
    ipureintro
    sl_unfold_run_names
    exact (read_store_whole _ _ hz2 _ _ _).trans (congrArg k0_pay7 ((load_store_whole _ hz2 _ _).trans
      (congrArg₂ k0_pay5 (load_whole arg2 harg2 hz3 _ x0) (load_whole arg6 harg6 hz2 _ b))))
  isplitl [H5]
  · iexists _; isplitr
    swap; · iexact H5
    ipureintro
    sl_unfold_run_names
    exact (read_store_whole _ _ hz2 _ _ _).trans (congrArg₂ k0_pay4 (load_whole arg2 harg2 hz3 _ x0) (load_whole arg5 harg5 hz2 _ a))
  · iexists _; isplitr
    swap; · iexact H6
    ipureintro
    sl_unfold_run_names
    exact (read_store_whole _ _ hz2 _ _ _).trans (congrArg₂ k0_pay5 (load_whole arg2 harg2 hz3 _ x0) (load_whole arg6 harg6 hz2 _ b))

section Region
variable (V : (c : Dev nD) → (b : Ref sig .tc) → Buf (Elt F) ((c : Thread nD τ).loc b))

/-! ## The input window's blocks -/

/-- The part of window `w`'s array that point `t` works on, taken from the contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is the
    entry contents and whose body leaves the block in place: the window is fetched at every point, uncut, never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The two accumulators, point by point -/

/-- The grid point of position `n` (positions past the grid wrap; only positions below 128 are read). -/
def ptOf (n : ℕ) : Fin cfg0.N := ⟨n % 128, lt_of_lt_of_eq (Nat.mod_lt _ (by decide)) N_0.symm⟩

theorem ptOf_val (t : Fin cfg0.N) : ptOf t.val = t :=
  Fin.ext (Nat.mod_eq_of_lt (lt_of_lt_of_eq t.isLt N_0))

/-- The input block the body loads at position `n`. -/
def blkAt (c : Dev nD) (n : ℕ) : Vec F S1x256x1024 .f32 := iblk0 V c 0 (ptOf n)

theorem blkAt_val (c : Dev nD) (t : Fin cfg0.N) : blkAt V c t.val = iblk0 V c 0 t := by
  unfold blkAt; rw [ptOf_val]

/-- The first accumulator after the body at position `n`: zeroed at the first point, and at every point the loaded
    block added to what it held. -/
def acc (c : Dev nD) : ℕ → Vec F S256x1024 .f32
  | 0 => k0_pay4 (blkAt V c 0) k0_pay1
  | n + 1 => k0_pay4 (blkAt V c (n + 1)) (acc c n)

/-- The second accumulator likewise, the block's squares added. -/
def accsq (c : Dev nD) : ℕ → Vec F S256x1024 .f32
  | 0 => k0_pay5 (blkAt V c 0) k0_pay2
  | n + 1 => k0_pay5 (blkAt V c (n + 1)) (accsq c n)

theorem acc_zero (c : Dev nD) : acc V c 0 = k0_pay4 (blkAt V c 0) k0_pay1 := rfl
theorem acc_succ (c : Dev nD) (n : ℕ) : acc V c (n + 1) = k0_pay4 (blkAt V c (n + 1)) (acc V c n) := rfl
theorem accsq_zero (c : Dev nD) : accsq V c 0 = k0_pay5 (blkAt V c 0) k0_pay2 := rfl
theorem accsq_succ (c : Dev nD) (n : ℕ) : accsq V c (n + 1) = k0_pay5 (blkAt V c (n + 1)) (accsq V c n) := rfl

/-! ## The invariant -/

/-- The two accumulators as memrefs: whole scoped buffers of the kernel's own. -/
abbrev scM0 : Memref sig .tc .vmem S256x1024 .f32 := Memref.whole cc0_scratch0
abbrev scM1 : Memref sig .tc .vmem S256x1024 .f32 := Memref.whole cc0_scratch1

/-- The core's other scoped buffers that are no staging buffer of this region (the second region's staging
    buffers), each whole at some contents. -/
def restScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the launch hands the region, with the accumulators as memrefs owned at some contents. -/
theorem PhiA0_eq (c : Dev nD) :
    (Pipeline.ΦA spec0 c : sProp 𝕄)
      = iprop(((∃ d, owns (c : Thread nD τ) scM0 fullShare d) ∗ (∃ d, owns (c : Thread nD τ) scM1 fullShare d) ∗ restScoped (F := F) c) ∗ (∃ r, prngReg c r)) := by
  unfold Pipeline.ΦA restScoped; rw [scopedRest0_eq]; simp only [scM0, scM1, owns_whole]; try rfl

/-- The invariant before position `n`: before the first point what the launch hands over (the accumulators at
    anything); afterwards the accumulators at what the point before left in them. -/
def PhiS (c : Dev nD) : ℕ → sProp 𝕄
  | 0 => Pipeline.ΦA spec0 c
  | n + 1 => iprop((owns (c : Thread nD τ) scM0 fullShare (acc V c n) ∗ owns (c : Thread nD τ) scM1 fullShare (accsq V c n) ∗ restScoped (F := F) c) ∗ (∃ r, prngReg c r))

theorem PhiS_zero (c : Dev nD) : PhiS V c 0 = Pipeline.ΦA spec0 c := rfl
theorem PhiS_succ (c : Dev nD) (n : ℕ) :
    PhiS V c (n + 1) = iprop((owns (c : Thread nD τ) scM0 fullShare (acc V c n) ∗ owns (c : Thread nD τ) scM1 fullShare (accsq V c n) ∗ restScoped (F := F) c) ∗ (∃ r, prngReg c r)) := rfl

/-! ## The proof data -/

/-- The proof data of the statistics region on core `c`: the arrays as the region finds them; after the body the
    input's buffer at its block, the two outputs' at the lane sums of the accumulators (read only at the last point,
    the one point that stores and writes them back); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay6 (acc V c t.val)
    | ⟨2, _⟩ => k0_pay7 (accsq V c t.val)
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = k0_pay6 (acc V c t.val) := by dsimp only [dat0]
theorem after0_2 (c : Dev nD) (t : Fin cfg0.N) : (dat0 V c).after 2 t = k0_pay7 (accsq V c t.val) := by dsimp only [dat0]

theorem before0_0 (c : Dev nD) (t : Fin cfg0.N) (d) : (dat0 V c).before 0 t d = iblk0 V c 0 t :=
  before0_0_of V (dat0 V c) (A_eq0 V c 0) (after0_0 V c) t d

theorem Phi_castSucc (c : Dev nD) (t : Fin cfg0.N) : (dat0 V c).Φ t.castSucc = PhiS V c t.val := by
  dsimp only [dat0]; simp only [Fin.coe_castSucc]

/-! ## The branch conditions and the idle points, over the grid -/

/-- The first branch is taken at the first point only; -/
theorem hcondFirst : ∀ t : Fin cfg0.N, condFirst (grid0.coords t) ↔ t.val = 0 :=
  (by decide +kernel : ∀ t : Fin grid0.N, condFirst (grid0.coords t) ↔ t.val = 0)
/-- the second at the last point only. -/
theorem hcondLast : ∀ t : Fin cfg0.N, condLast (grid0.coords t) ↔ t.val = 127 :=
  (by decide +kernel : ∀ t : Fin grid0.N, condLast (grid0.coords t) ↔ t.val = 127)

/-- The input window is never idle. -/
theorem liveAt0_0 : ∀ t : Fin cfg0.N, cfg0.idle 0 (grid0.coords t) = false := by decide +kernel
/-- Off the last point the outputs are idle and not written back; at it they are live. -/
theorem idleAt0_1 : ∀ t : Fin cfg0.N, ¬condLast (grid0.coords t) → cfg0.idle 1 (grid0.coords t) = true := by decide +kernel
theorem noFlush0_1 : ∀ t : Fin cfg0.N, ¬condLast (grid0.coords t) → (cfg0.win 1).flush t = false := by decide +kernel
theorem liveAt0_1 : ∀ t : Fin cfg0.N, condLast (grid0.coords t) → cfg0.idle 1 (grid0.coords t) = false := by decide +kernel
theorem idleAt0_2 : ∀ t : Fin cfg0.N, ¬condLast (grid0.coords t) → cfg0.idle 2 (grid0.coords t) = true := by decide +kernel
theorem noFlush0_2 : ∀ t : Fin cfg0.N, ¬condLast (grid0.coords t) → (cfg0.win 2).flush t = false := by decide +kernel
theorem liveAt0_2 : ∀ t : Fin cfg0.N, condLast (grid0.coords t) → cfg0.idle 2 (grid0.coords t) = false := by decide +kernel

/-! ## The body obligation -/

/-- The resources the body starts from at point `t`: the invariant before the point, the debts, and each window's
    current buffer at its contents before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- The resources it ends with: the invariant after the point, the debts, and what each window's buffer is left
    holding. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point, by the point's case: at the first point both accumulators are zeroed and the block
    added; at a middle point the block is added to what the point before left; at the last point the lane sums are
    stored into the outputs as well. Off the last point the outputs' buffers pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) from rfl, Phi_castSucc]
  rw [show (dat0 V c).leavesExact 0 t = owns (c : Thread nD τ) (st0_0 t) fullShare ((dat0 V c).after 0 t) from by
    unfold Dat.leavesExact; rw [liveAt0_0 t], after0_0]
  have hN : t.val < 128 := lt_of_lt_of_eq t.isLt N_0
  by_cases h0 : t.val = 0
  · have hc1 : condFirst (grid0.coords t) := (hcondFirst t).mpr h0
    have hc2 : ¬condLast (grid0.coords t) := fun h => by have := (hcondLast t).mp h; omega
    rw [Dat.leavesExact_idle (dat0 V c) 1 t (idleAt0_1 t hc2) (noFlush0_1 t hc2),
      Dat.leavesExact_idle (dat0 V c) 2 t (idleAt0_2 t hc2) (noFlush0_2 t hc2)]
    rw [show PhiS V c t.val = Pipeline.ΦA spec0 c from by rw [h0]; rfl, PhiA0_eq]
    rw [show PhiS V c (t.val + 1) = iprop((owns (c : Thread nD τ) scM0 fullShare (k0_pay4 (iblk0 V c 0 t) k0_pay1) ∗ owns (c : Thread nD τ) scM1 fullShare (k0_pay5 (iblk0 V c 0 t) k0_pay2) ∗ restScoped (F := F) c) ∗ (∃ r, prngReg c r)) from by
      rw [← blkAt_val V c t, h0]; rfl]
    iintro ⟨⟨⟨HS0, HS1, HR⟩, Hg⟩, Ho, ⟨%d0, H0⟩, H1, H2⟩
    iapply (kernel_first c Set.univ (grid0.coords t) _ _ _ _ _ _ _ _ _ _ hc1 hc2 (iblk0 V c 0 t) _)
    isplitl [H0]; · iexact H0
    isplitl [HS0]; · iexact HS0
    isplitl [HS1]; · iexact HS1
    iintro ⟨H0, HS0, HS1⟩
    isplitl [HS0 HS1 HR Hg]
    · isplitr [Hg]
      · isplitl [HS0]; · iexact HS0
        isplitl [HS1]; · iexact HS1
        iexact HR
      iexact Hg
    isplitl [Ho]; · iexact Ho
    isplitl [H0]; · iexact H0
    isplitl [H1]; · iexact H1
    iexact H2
  · obtain ⟨n, hn⟩ : ∃ n, t.val = n + 1 := ⟨t.val - 1, by omega⟩
    have hc1 : ¬condFirst (grid0.coords t) := fun h => h0 ((hcondFirst t).mp h)
    rw [show PhiS V c t.val = iprop((owns (c : Thread nD τ) scM0 fullShare (acc V c n) ∗ owns (c : Thread nD τ) scM1 fullShare (accsq V c n) ∗ restScoped (F := F) c) ∗ (∃ r, prngReg c r)) from by
      rw [hn]; rfl]
    have hacc : acc V c t.val = k0_pay4 (iblk0 V c 0 t) (acc V c n) := by rw [← blkAt_val V c t, hn]; rfl
    have haccsq : accsq V c t.val = k0_pay5 (iblk0 V c 0 t) (accsq V c n) := by rw [← blkAt_val V c t, hn]; rfl
    rw [PhiS_succ, hacc, haccsq]
    by_cases h1 : t.val = 127
    · have hc2 : condLast (grid0.coords t) := (hcondLast t).mpr h1
      rw [show (dat0 V c).leavesExact 1 t = owns (c : Thread nD τ) (st0_1 t) fullShare ((dat0 V c).after 1 t) from by
        unfold Dat.leavesExact; rw [liveAt0_1 t hc2], after0_1, hacc]
      rw [show (dat0 V c).leavesExact 2 t = owns (c : Thread nD τ) (st0_2 t) fullShare ((dat0 V c).after 2 t) from by
        unfold Dat.leavesExact; rw [liveAt0_2 t hc2], after0_2, haccsq]
      iintro ⟨⟨⟨HS0, HS1, HR⟩, Hg⟩, Ho, ⟨%d0, H0⟩, ⟨%d1, H1⟩, ⟨%d2, H2⟩⟩
      iapply (kernel_last c Set.univ (grid0.coords t) _ _ _ _ _ _ _ _ _ _ hc1 hc2 (iblk0 V c 0 t) (acc V c n) (accsq V c n) _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 HR Hg]
      · isplitr [Hg]
        · isplitl [HS0]; · iexact HS0
          isplitl [HS1]; · iexact HS1
          iexact HR
        iexact Hg
      isplitl [Ho]; · iexact Ho
      isplitl [H0]; · iexact H0
      isplitl [H1]; · iexact H1
      iexact H2
    · have hc2 : ¬condLast (grid0.coords t) := fun h => h1 ((hcondLast t).mp h)
      rw [Dat.leavesExact_idle (dat0 V c) 1 t (idleAt0_1 t hc2) (noFlush0_1 t hc2),
        Dat.leavesExact_idle (dat0 V c) 2 t (idleAt0_2 t hc2) (noFlush0_2 t hc2)]
      iintro ⟨⟨⟨HS0, HS1, HR⟩, Hg⟩, Ho, ⟨%d0, H0⟩, H1, H2⟩
      iapply (kernel_mid c Set.univ (grid0.coords t) _ _ _ _ _ _ _ _ _ _ hc1 hc2 (iblk0 V c 0 t) (acc V c n) (accsq V c n) _)
      isplitl [H0]; · iexact H0
      isplitl [HS0]; · iexact HS0
      isplitl [HS1]; · iexact HS1
      iintro ⟨H0, HS0, HS1⟩
      isplitl [HS0 HS1 HR Hg]
      · isplitr [Hg]
        · isplitl [HS0]; · iexact HS0
          isplitl [HS1]; · iexact HS1
          iexact HR
        iexact Hg
      isplitl [Ho]; · iexact Ho
      isplitl [H0]; · iexact H0
      isplitl [H1]; · iexact H1
      iexact H2

/-- The same with the three windows gathered into one iterated conjunction: the form the pipeline's run asks for. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS V c 0 from rfl, PhiS_zero]
  try exact Idealize.SL.BI.Entails.refl _

/-- After the last point the invariant gives it back: the accumulators' named contents are forgotten. -/
theorem hout0 (c : Dev nD) : (dat0 V c).Φ (Fin.last cfg0.N) ⊢ (Pipeline.ΦA spec0 c : sProp 𝕄) := by
  rw [show (dat0 V c).Φ (Fin.last cfg0.N) = PhiS V c (127 + 1) from rfl, PhiS_succ, PhiA0_eq]
  iintro ⟨⟨HS0, HS1, HR⟩, Hg⟩
  isplitr [Hg]
  · isplitl [HS0]; · iexists _; iexact HS0
    isplitl [HS1]; · iexists _; iexact HS1
    iexact HR
  iexact Hg

end Region

end Cert.ReferenceIdeal.Stats
end
-- ==== Proof.TwoPassRun.lean ====
/-
  The reference program's run, from the launch to the return: a host stretch that flattens the positions, the
  statistics pass, the host arithmetic that turns the per-channel sums into a scale and a shift, the normalising
  pass, and the host arithmetic that steps the running statistics and folds the positions back. The contents of
  every buffer that outlives a pass are followed through the five boundaries as one fold from the launch memory
  (`W0` … `W5`): a host stretch applies its operations, a pass leaves its arrays at what its write-backs give and
  every other buffer alone. Each pass is entered with all those buffers held at the boundary's contents, the
  generator register at some state and nothing owed, and left the same way; the statistics pass keeps its two
  accumulators inside its own invariant between grid points and gives them back, their contents no longer named,
  at its end. The conclusion: every weakly fair execution terminates, nothing faults, and the final memory holds
  every such buffer at the last boundary's contents.
-/
import proofs.«110882_g2000100512545763_pallasbulk_79_2_alg».proof.Proof.Gen.ReferenceIdeal.Launch
import proofs.«110882_g2000100512545763_pallasbulk_79_2_alg».proof.Proof.Gen.ReferenceIdeal.Skeleton
import proofs.«110882_g2000100512545763_pallasbulk_79_2_alg».proof.Proof.Gen.ReferenceIdeal.Points
import proofs.«110882_g2000100512545763_pallasbulk_79_2_alg».proof.Proof.NormRegion
import proofs.«110882_g2000100512545763_pallasbulk_79_2_alg».proof.Proof.StatsRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.TwoPass

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main: a fold from the launch memory -/

/-- Core `c`'s buffers at launch. -/
abbrev W0 : Dev nD → Valuation τ sig (Elt F) := fun c b => (s₀ m ρ).mem ((c : Dev nD), b)
/-- After the first host stretch (the statistics region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the statistics region's exit: its arrays at what its write-backs leave, every other buffer as entered. -/
def W2 (c : Dev nD) : Valuation τ sig (Elt F) :=
  Pipeline.withArrays spec0 c (W1 m ρ c) fun w => (Stats.dat0 (V1 m ρ) c).arrAt w cfg0.N
theorem W2_arr (c : Dev nD) (w : Fin cfg0.W) :
    W2 m ρ c (Proc.devRef .tc (Pipeline.arrRef spec0 w)) = (Stats.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem exit0_arr (c : Dev nD) (w : Fin cfg0.W) : (Stats.dat0 (V1 m ρ) c).arrAt w cfg0.N = V2 m ρ c (Pipeline.arrRef spec0 w) :=
  (W2_arr m ρ c w).symm
theorem exit0_rest (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the middle host stretch (the normalising region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the normalising region's exit. -/
def W4 (c : Dev nD) : Valuation τ sig (Elt F) :=
  Pipeline.withArrays spec1 c (W3 m ρ c) fun w => (Norm.dat1 (V3 m ρ) c).arrAt w cfg1.N
theorem W4_arr (c : Dev nD) (w : Fin cfg1.W) :
    W4 m ρ c (Proc.devRef .tc (Pipeline.arrRef spec1 w)) = (Norm.dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem exit1_arr (c : Dev nD) (w : Fin cfg1.W) : (Norm.dat1 (V3 m ρ) c).arrAt w cfg1.N = V4 m ρ c (Pipeline.arrRef spec1 w) :=
  (W4_arr m ρ c w).symm
theorem exit1_rest (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- After the last host stretch: what @main returns from. -/
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Stats.dat0 (V1 m ρ) c
  | ⟨1, _⟩ => fun c => Norm.dat1 (V3 m ρ) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the `owes`: every unscoped buffer at the last boundary's contents. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The statistics region: entered with every unscoped buffer at `W1`, left with them at `W2`. Its scratch buffers go
    into the region's invariant with the scoped rest and come back out of it at the end, at contents no longer named. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Stats.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 0).pre c (fun _ => fullShare) (adm (F := F) 0).1
        ∗ Pipeline.scopedRest (Ix := Unit) (Name := ℕ) (U := UR sig nD τ) (Lvl := ℕ) (Val := Elt F) spec0 c) ⊢ (Pipeline.ΦA spec0 c : sProp 𝕄) := by
      unfold Pipeline.ΦA
      iintro ⟨Hp, -, Hr⟩
      isplitl [Hr]; · iexact Hr
      iexact Hp
    exact h1.trans (Stats.hin0 (V1 m ρ) c)
  hout c := by
    rw [Pipeline.ownSems0_none]
    have h1 : (Pipeline.ΦA spec0 c : sProp 𝕄) ⊢ iprop((∃ r, prngReg c r) ∗ BI.emp
        ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (Stats.hout0 (V1 m ρ) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalising region: entered with every unscoped buffer at `W3`, left with them at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Norm.body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state holds every unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.ReferenceIdeal.TwoPass

end
-- ==== Proof.TwoPassHost.lean ====
/-
  The reference's host arithmetic between and after its two passes, read at an index on the extended reals.
  Between the passes the per-channel sums s and ss (columns [256, 1]) become the mean s / 131072, the variance
  max (ss / 131072 - mean * mean, 0), the scale w * rsqrt (var + eps) and the shift b - mean * scale, the last two
  laid out again as columns. Dividing by the count is multiplying by its reciprocal's word (`BatchStats.div_count`),
  so each is the specification's function of the sums (`meanOf`, `varOf`, `scaleOf`, `shiftOf`). After the second
  pass the running statistics move a tenth of the way to the batch's, and the normalised array is folded back to a
  64 x 64 grid of positions; that last layout change is left closed.
-/
import proofs.«110882_g2000100512545763_pallasbulk_79_2_alg».proof.Proof.Gen.ReferenceIdeal.Launch
import proofs.«110882_g2000100512545763_pallasbulk_79_2_alg».proof.Proof.BatchStats
import Idealize.ShloMosaic.Lib.StableHlo.Run
import Idealize.ShloMosaic.Lib.Pipeline.Value
import Idealize.ShloMosaic.Lib.ValueIdx

noncomputable section

namespace Cert.ReferenceIdeal.TwoPass

open Idealize.ShloMosaic Idealize.ShloMosaic.TcCoe Idealize.ShloMosaic.ValueIdx Idealize.SL.Sem
open Cert.ReferenceIdeal Cert.ReferenceIdeal.Gen

/-! ## A trailing unit axis dropped from or added to a vector -/

section Casts
variable {α : Type}

/-- An `[a, 1]` column cast to `[a]` reads, at `i`, the column at `(i, 0)`. -/
theorem cast_col_vec {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` vector cast to an `[a, 1]` column reads, at `(i, u)`, the vector at `i`. -/
theorem cast_vec_col {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Casts

/-! ## The stretch between the passes, as functions of the sums' columns and the weight and bias -/

abbrev Col := FVec Ideal S256x1 .f32
abbrev Vec1 := FVec Ideal S256 .f32

/-- A scalar word spread over the channels. -/
def spread (b : BitVec 32) : Vec1 := broadcastInDim S256 ![] bcast_S_S256 (constant (F := Ideal) S_ .f32 b)

def meanVec (s : Col) : Vec1 :=
  Host.divf (F := Ideal) (shapeCast S256 s shapeCasts_S256x1_S256) (spread 0x48000000#32)
def varVec (s ss : Col) : Vec1 :=
  maximumf (subf (Host.divf (F := Ideal) (shapeCast S256 ss shapeCasts_S256x1_S256) (spread 0x48000000#32)) (mulf (meanVec s) (meanVec s)))
    (spread 0x00000000#32)
def scaleVec (w : Vec1) (s ss : Col) : Vec1 :=
  mulf w (Host.rsqrt (F := Ideal) (addf (varVec s ss) (spread 0x3727C5AC#32)))
def shiftVec (w b : Vec1) (s ss : Col) : Vec1 := subf b (mulf (meanVec s) (scaleVec w s ss))
def scaleCol (w : Vec1) (s ss : Col) : Col := shapeCast S256x1 (scaleVec w s ss) shapeCasts_S256_S256x1
def shiftCol (w b : Vec1) (s ss : Col) : Col := shapeCast S256x1 (shiftVec w b s ss) shapeCasts_S256_S256x1

theorem spread_apply (b : BitVec 32) (i : S256.Idx) : spread b i = Ideal.ofBits .f32 b := rfl

theorem meanVec_apply (s : Col) (r : Fin 256) : meanVec s (ix1 r) = BatchStats.meanOf (s (ix2 r 0)) := by
  unfold meanVec BatchStats.meanOf
  show Ideal.div (shapeCast S256 s shapeCasts_S256x1_S256 (ix1 r)) (Ideal.ofBits .f32 0x48000000#32) = _
  rw [cast_col_vec s _ r, BatchStats.div_count]

theorem varVec_apply (s ss : Col) (r : Fin 256) :
    varVec s ss (ix1 r) = BatchStats.varOf (s (ix2 r 0)) (ss (ix2 r 0)) := by
  unfold varVec BatchStats.varOf
  show max (Ideal.div (shapeCast S256 ss shapeCasts_S256x1_S256 (ix1 r)) (Ideal.ofBits .f32 0x48000000#32)
      - meanVec s (ix1 r) * meanVec s (ix1 r)) (Ideal.ofBits .f32 0x00000000#32) = _
  rw [cast_col_vec ss _ r, BatchStats.div_count, meanVec_apply]
  rfl

theorem scaleVec_apply (w : Vec1) (s ss : Col) (r : Fin 256) :
    scaleVec w s ss (ix1 r) = BatchStats.scaleOf (w (ix1 r)) (s (ix2 r 0)) (ss (ix2 r 0)) := by
  unfold scaleVec BatchStats.scaleOf
  show w (ix1 r) * Ideal.rsqrt (varVec s ss (ix1 r) + Ideal.ofBits .f32 0x3727C5AC#32) = _
  rw [varVec_apply]
  rfl

theorem shiftVec_apply (w b : Vec1) (s ss : Col) (r : Fin 256) :
    shiftVec w b s ss (ix1 r) = BatchStats.shiftOf (w (ix1 r)) (b (ix1 r)) (s (ix2 r 0)) (ss (ix2 r 0)) := by
  unfold shiftVec BatchStats.shiftOf
  show b (ix1 r) - meanVec s (ix1 r) * scaleVec w s ss (ix1 r) = _
  rw [meanVec_apply, scaleVec_apply]

theorem scaleCol_apply (w : Vec1) (s ss : Col) (r : Fin 256) (u : Fin 1) :
    scaleCol w s ss (ix2 r u) = BatchStats.scaleOf (w (ix1 r)) (s (ix2 r 0)) (ss (ix2 r 0)) := by
  unfold scaleCol
  rw [cast_vec_col _ _ r u, scaleVec_apply]

theorem shiftCol_apply (w b : Vec1) (s ss : Col) (r : Fin 256) (u : Fin 1) :
    shiftCol w b s ss (ix2 r u) = BatchStats.shiftOf (w (ix1 r)) (b (ix1 r)) (s (ix2 r 0)) (ss (ix2 r 0)) := by
  unfold shiftCol
  rw [cast_vec_col _ _ r u, shiftVec_apply]

/-! ## What the middle stretch leaves, from any contents before it -/

variable (W : Valuation τ sig (Elt Ideal))

theorem mid_scale : (StableHlo.after (hostOps1 (F := Ideal)) W (Proc.devRef .tc main_v18) : Col)
    = scaleCol (W (Proc.devRef .tc main_arg1)) (W (Proc.devRef .tc main_v1_0)) (W (Proc.devRef .tc main_v1_1)) := by
  after_results; rfl
set_option maxHeartbeats 1000000 in
theorem mid_shift : (StableHlo.after (hostOps1 (F := Ideal)) W (Proc.devRef .tc main_v19) : Col)
    = shiftCol (W (Proc.devRef .tc main_arg1)) (W (Proc.devRef .tc main_arg2)) (W (Proc.devRef .tc main_v1_0)) (W (Proc.devRef .tc main_v1_1)) := by
  after_results_simp
  unfold shiftCol shiftVec scaleVec varVec meanVec spread
  rfl
theorem mid_mean : (StableHlo.after (hostOps1 (F := Ideal)) W (Proc.devRef .tc main_v4) : Vec1)
    = meanVec (W (Proc.devRef .tc main_v1_0)) := by
  after_results; rfl
theorem mid_var : (StableHlo.after (hostOps1 (F := Ideal)) W (Proc.devRef .tc main_v11) : Vec1)
    = varVec (W (Proc.devRef .tc main_v1_0)) (W (Proc.devRef .tc main_v1_1)) := by
  after_results; rfl

/-! ## The last stretch -/

/-- A running statistic moved a tenth of the way to the batch's. -/
def stepTo (run stat : Vec1) : Vec1 := addf run (mulf (spread 0x3DCCCCCD#32) (subf stat run))

theorem stepTo_apply (run stat : Vec1) (i : S256.Idx) :
    stepTo run stat i = run i + BatchStats.momentum * (stat i - run i) := rfl

theorem last_mean : (StableHlo.after (hostOps2 (F := Ideal)) W (Proc.devRef .tc main_v25) : Vec1)
    = stepTo (W (Proc.devRef .tc main_arg3)) (W (Proc.devRef .tc main_v4)) := by
  after_results; rfl
theorem last_var : (StableHlo.after (hostOps2 (F := Ideal)) W (Proc.devRef .tc main_v29) : Vec1)
    = stepTo (W (Proc.devRef .tc main_arg4)) (W (Proc.devRef .tc main_v11)) := by
  after_results; rfl
theorem last_y : (StableHlo.after (hostOps2 (F := Ideal)) W (Proc.devRef .tc main_v21) : FVec Ideal S32x256x64x64 .f32)
    = BatchStats.unflat (W (Proc.devRef .tc main_v20)) := by
  after_results; rfl

/-- The first stretch flattens the positions. -/
theorem first_flat : (StableHlo.after (hostOps0 (F := Ideal)) W (Proc.devRef .tc main_v0) : FVec Ideal S32x256x4096 .f32)
    = BatchStats.flat (W (Proc.devRef .tc main_arg0)) := by
  after_results; rfl

end Cert.ReferenceIdeal.TwoPass

end
-- ==== Proof.NormRegionValue.lean ====
/-
  The value of the normalising region's output array: every entry of the input array times its channel's
  scale plus its channel's shift. The body's payload is read at an index through its layout operations
  (a leading unit axis dropped and put back, a [256, 1] column broadcast along the lanes); point t = (n, k)
  of the 32 x 4 grid writes back the block at (n, 0, k), and the 128 blocks tile the array.
-/
import proofs.«110882_g2000100512545763_pallasbulk_79_2_alg».proof.Proof.NormRegion
import Idealize.ShloMosaic.Lib.ValueIdx
import Idealize.ShloMosaic.Lib.ValueLayout
import Idealize.ShloMosaic.Lib.Pipeline.Value

set_option maxRecDepth 16384

noncomputable section

namespace Cert.ReferenceIdeal.Norm

open Cert.ReferenceIdeal Cert.ReferenceIdeal.Gen
open Idealize.ShloMosaic Idealize.ShloMosaic.TcCoe Idealize.ShloMosaic.ValueIdx
open Idealize.ShloMosaic.Pipeline (Dat Cfg Window)

/-! ## A column broadcast along the lanes -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payload at an index -/

/-- The stored value at `(u, r, j)`: the input block's entry times row `r` of the scale column plus row `r` of the
    shift column. -/
theorem stored_ix (x0 : Vec Ideal S1x256x1024 .f32) (x1 x2 : Vec Ideal S256x1 .f32) (u : Fin 1) (r : Fin 256) (j : Fin 1024) :
    k1_pay1 x0 x1 x2 (ix3 u r j) = x0 (ix3 u r j) * x1 (ix2 r (0 : Fin 1)) + x2 (ix2 r (0 : Fin 1)) := by
  have hu : u = 0 := Fin.ext (by omega)
  subst hu
  unfold k1_pay1
  refine (shapeCast_ab_1ab_apply _ _ (0 : Fin 1) r j).trans ?_
  rw [addf_apply, mulf_apply]
  rw [shapeCast_self, shapeCast_self]
  rw [broadcastTo_a1_ab_apply, broadcastTo_a1_ab_apply, shapeCast_1ab_ab_apply]

/-- The payload at any index of the block. -/
theorem stored_at (x0 : Vec Ideal S1x256x1024 .f32) (x1 x2 : Vec Ideal S256x1 .f32) (y : S1x256x1024.Idx) (r : Fin 256)
    (hr : r.val = (y 1).val) :
    k1_pay1 x0 x1 x2 y = x0 y * x1 (ix2 r (0 : Fin 1)) + x2 (ix2 r (0 : Fin 1)) := by
  obtain ⟨u, r', j, rfl⟩ : ∃ (u : Fin 1) (r' : Fin 256) (j : Fin 1024), y = ix3 u r' j := ⟨y 0, y 1, y 2, eq_ix3 y⟩
  have e : r = r' := Fin.ext hr
  subst e
  exact stored_ix x0 x1 x2 u r j

/-! ## The blocks of the four windows -/

variable (V : (c : Dev nD) → (b : Ref sig .tc) → Buf (Elt Ideal) ((c : Thread nD τ).loc b))

/-- The printed index maps over the grid: point `t` is `(t / 4, t % 4)`; the input and the output block sit at
    `(t / 4, 0, t % 4)`, the two columns at `(0, 0)`. -/
theorem block_positions : ∀ t : Fin cfg1.N,
    win1_0.index t (0 : Fin 3) = t.val / 4 ∧ win1_0.index t (1 : Fin 3) = 0 ∧ win1_0.index t (2 : Fin 3) = t.val % 4
    ∧ win1_3.index t (0 : Fin 3) = t.val / 4 ∧ win1_3.index t (1 : Fin 3) = 0 ∧ win1_3.index t (2 : Fin 3) = t.val % 4
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- The input block at point `t` is the entries `(t / 4, r, 1024 (t % 4) + j)` of the input array. -/
theorem iblk_x (c : Dev nD) (t : Fin cfg1.N) (y : S1x256x1024.Idx) (k : S32x256x4096.Idx)
    (h0 : (k 0).val = t.val / 4) (h1 : (k 1).val = (y 1).val) (h2 : (k 2).val = 1024 * (t.val % 4) + (y 2).val) :
    (iblk1 V c 0 t : Vec Ideal S1x256x1024 .f32) y = (V c main_v0 : S32x256x4096.Idx → EReal) k := by
  obtain ⟨e0, e1, e2, -⟩ := block_positions t
  unfold iblk1
  rw [View.read_apply]
  show (V c main_v0 : S32x256x4096.Idx → EReal) _ = _
  refine congrArg _ (funext fun a => Fin.ext ?_)
  have hy0 : (y 0).val < 1 := (y 0).isLt
  match a with
  | ⟨0, _⟩ => show win1_0.index t (0 : Fin 3) * 1 + 1 * (y 0).val = (k 0).val; rw [e0, h0]; omega
  | ⟨1, _⟩ => show win1_0.index t (1 : Fin 3) * 256 + 1 * (y 1).val = (k 1).val; rw [e1, h1]; omega
  | ⟨2, _⟩ => show win1_0.index t (2 : Fin 3) * 1024 + 1 * (y 2).val = (k 2).val; rw [e2, h2]; omega

/-- The scale window's block at every point is the whole scale column. -/
theorem iblk_scale (c : Dev nD) (t : Fin cfg1.N) (y : S256x1.Idx) :
    (iblk1 V c 1 t : Vec Ideal S256x1 .f32) y = (V c main_v18 : S256x1.Idx → EReal) y := by
  obtain ⟨-, -, -, -, -, -, e0, e1, -⟩ := block_positions t
  unfold iblk1
  rw [View.read_apply]
  show (V c main_v18 : S256x1.Idx → EReal) _ = _
  refine congrArg _ (funext fun a => Fin.ext ?_)
  match a with
  | ⟨0, _⟩ => show win1_1.index t (0 : Fin 2) * 256 + 1 * (y 0).val = (y 0).val; rw [e0]; omega
  | ⟨1, _⟩ => show win1_1.index t (1 : Fin 2) * 1 + 1 * (y 1).val = (y 1).val; rw [e1]; omega

/-- The shift window's block at every point is the whole shift column. -/
theorem iblk_shift (c : Dev nD) (t : Fin cfg1.N) (y : S256x1.Idx) :
    (iblk1 V c 2 t : Vec Ideal S256x1 .f32) y = (V c main_v19 : S256x1.Idx → EReal) y := by
  obtain ⟨-, -, -, -, -, -, -, -, e0, e1⟩ := block_positions t
  unfold iblk1
  rw [View.read_apply]
  show (V c main_v19 : S256x1.Idx → EReal) _ = _
  refine congrArg _ (funext fun a => Fin.ext ?_)
  match a with
  | ⟨0, _⟩ => show win1_2.index t (0 : Fin 2) * 256 + 1 * (y 0).val = (y 0).val; rw [e0]; omega
  | ⟨1, _⟩ => show win1_2.index t (1 : Fin 2) * 1 + 1 * (y 1).val = (y 1).val; rw [e1]; omega

/-! ## From blocks to the array -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The three input arrays as the region finds them, as functions of literal index types. -/
abbrev xArr (c : Dev nD) : S32x256x4096.Idx → EReal := V c main_v0
abbrev scaleArr (c : Dev nD) : S256x1.Idx → EReal := V c main_v18
abbrev shiftArr (c : Dev nD) : S256x1.Idx → EReal := V c main_v19

/-- What the output array ends holding: every entry of the input array times its channel's scale plus its
    channel's shift. -/
def normArr (c : Dev nD) : S32x256x4096.Idx → EReal :=
  fun i => xArr V c i * scaleArr V c (ix2 (i 1) 0) + shiftArr V c (ix2 (i 1) 0)

/-- What point `t` writes back is block `t` of `normArr`. -/
theorem writeback_eq (c : Dev nD) (t : Fin cfg1.N) :
    (dat1 V c).flushed 3 t = ((cfg1.win 3).blk t).view.read (Elt Ideal) (normArr V c) := by
  show (cfg1.win 3).cut (grid1.coords t) ((dat1 V c).after 3 t) = _
  rw [after1_3]
  unfold out1_3
  rw [View.canon_unit_zero zeros3]
  simp only [View.ld_unit_zero (S := S1x256x1024) zeros3, View.ld_unit_zero (S := S256x1) zeros2]
  obtain ⟨-, -, -, e0, e1, e2, -⟩ := block_positions t
  funext y
  rw [View.read_apply]
  -- the array index under block index `y`
  have hk : ∀ a : Fin 3, ((((cfg1.win 3).blk t).view.emb y : S32x256x4096.Idx) a).val = win1_3.index t a * S1x256x1024.size a + 1 * ((y : S1x256x1024.Idx) a).val :=
    fun a => rfl
  have hy0 : ((y : S1x256x1024.Idx) 0).val < 1 := ((y : S1x256x1024.Idx) 0).isLt
  have k0 := hk 0; have k1 := hk 1; have k2 := hk 2
  rw [e0] at k0; rw [e1] at k1; rw [e2] at k2
  refine (stored_at _ _ _ y ((((cfg1.win 3).blk t).view.emb y : S32x256x4096.Idx) 1) ?_).trans ?_
  · show _ = ((y : S1x256x1024.Idx) 1).val
    rw [k1]; show 0 * 256 + 1 * _ = _; omega
  unfold normArr
  rw [iblk_x V c t y (((cfg1.win 3).blk t).view.emb y) (by rw [k0]; show _ * 1 + _ = _; omega)
      (by rw [k1]; show 0 * 256 + 1 * _ = _; omega) (by rw [k2]; show _ * 1024 + _ = _; omega),
    iblk_scale, iblk_shift]
  rfl

/-- Membership in point `t`'s block, axis by axis: the coordinate lies between the block's first entry on that
    axis and its last. -/
theorem mem_block (t : Fin cfg1.N) (i : S32x256x4096.Idx) :
    i ∈ ((cfg1.win 3).blk t).view.set ↔ ∀ a : Fin 3, win1_3.index t a * S1x256x1024.size a ≤ (i a).val ∧ (i a).val < win1_3.index t a * S1x256x1024.size a + S1x256x1024.size a := by
  show i ∈ ((View.whole main_v20).slice (win1_3.rect t)).set ↔ _
  rw [View.set_slice_whole, Rect.mem_set_unit]
  exact Iff.rfl

/-- Every block position `(n, 0, k)` is some point's. -/
theorem position_onto : ∀ (n : Fin 32) (k : Fin 4), ∃ t : Fin cfg1.N, win1_3.index t = ![n.val, 0, k.val] :=
  (by decide +kernel : ∀ (n : Fin 32) (k : Fin 4), ∃ t : Fin grid1.N, win1_3.index t = ![n.val, 0, k.val])

/-- The 128 blocks tile the array: entry `(n, r, j)` is in the block at `(n, 0, j / 1024)`. -/
theorem blocks_cover (i : S32x256x4096.Idx) :
    ∃ t : Fin cfg1.N, (cfg1.win 3).flush t = true ∧ i ∈ ((cfg1.win 3).blk t).view.set := by
  have hi0 : (i 0).val < 32 := (i 0).isLt
  have hi1 : (i 1).val < 256 := (i 1).isLt
  have hi2 : (i 2).val < 4096 := (i 2).isLt
  obtain ⟨t, ht⟩ := position_onto ⟨(i 0).val, hi0⟩ ⟨(i 2).val / 1024, by omega⟩
  have q0 : win1_3.index t (0 : Fin 3) = (i 0).val := congrFun ht 0
  have q1 : win1_3.index t (1 : Fin 3) = 0 := congrFun ht 1
  have q2 : win1_3.index t (2 : Fin 3) = (i 2).val / 1024 := congrFun ht 2
  refine ⟨t, flush1_3 t, ?_⟩
  rw [mem_block]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 1024 ≤ (i 2).val ∧ (i 2).val < win1_3.index t (2 : Fin 3) * 1024 + 1024; omega

/-! ## The output array -/

/-- The region's output array after the last point: every entry of the input array times its channel's scale plus
    its channel's shift. -/
theorem norm_out (c : Dev nD) : (dat1 (F := Ideal) V c).arrAt 3 cfg1.N
    = fun i : S32x256x4096.Idx => xArr V c i * scaleArr V c (ix2 (i 1) 0) + shiftArr V c (ix2 (i 1) 0) :=
  (dat1 V c).arrAt_eq_of_cover 3 (normArr V c) (fun t _ => writeback_eq V c t) blocks_cover

/-- The same with the three input arrays named by the caller. -/
theorem norm_out_of (c : Dev nD) (x : S32x256x4096.Idx → EReal) (sc sh : S256x1.Idx → EReal)
    (hx : V c main_v0 = x) (hsc : V c main_v18 = sc) (hsh : V c main_v19 = sh) :
    (dat1 (F := Ideal) V c).arrAt 3 cfg1.N = fun i : S32x256x4096.Idx => x i * sc (ix2 (i 1) 0) + sh (ix2 (i 1) 0) := by
  subst hx; subst hsc; subst hsh
  exact norm_out V c

/-- The same entry by entry, over the three coordinates. -/
theorem norm_out_ix3 (c : Dev nD) (x : S32x256x4096.Idx → EReal) (sc sh : S256x1.Idx → EReal)
    (hx : V c main_v0 = x) (hsc : V c main_v18 = sc) (hsh : V c main_v19 = sh) (n : Fin 32) (r : Fin 256) (j : Fin 4096) :
    ((dat1 (F := Ideal) V c).arrAt 3 cfg1.N : S32x256x4096.Idx → EReal) (ix3 n r j)
      = x (ix3 n r j) * sc (ix2 r (0 : Fin 1)) + sh (ix2 r (0 : Fin 1)) := by
  rw [norm_out_of V c x sc sh hx hsc hsh]

end Cert.ReferenceIdeal.Norm

end
-- ==== Proof.LibERealStats.lean ====
/-
  General lemmas on the extended reals for batch statistics (mean and variance) computed from
  per-tile partial sums. Nothing here mentions a program: the index types are abstract finite
  types, and the only operation beyond Mathlib's is the quotient `div` of the ideal float values
  (`x * y⁻¹` off zero).

  Contents:
  * `IsReal` — an extended real that is the image of a real number — and its closure under the
    arithmetic operations, finite sums, and the quotient by a nonzero real;
  * regrouping of a sum over `Fin (a * b)` into `a` tiles of `b` consecutive terms, in any additive
    commutative monoid;
  * the variance identity `(Σ (hᵢ - μ)²) / N = (Σ hᵢ²) / N - μ²`, `μ = (Σ hᵢ) / N`, for finite `hᵢ`;
  * small facts about the quotient by a real and about sums of ones.
-/
import Mathlib.Data.EReal.Inv
import Mathlib.Algebra.BigOperators.Group.Finset.Basic
import Mathlib.Algebra.BigOperators.Fin
import Mathlib.Logic.Equiv.Fin.Basic
import Mathlib.Tactic.FieldSimp
import Mathlib.Tactic.Ring
import Idealize.ShloMosaic.PureOps.Ideal

namespace Cert.LibERealStats

open scoped BigOperators

/-! ## Finite extended reals -/

/-- An extended real is *finite* when it is the image of a real number. -/
def IsReal (x : EReal) : Prop := ∃ r : ℝ, x = (r : EReal)

/-- The image of a real number is finite. -/
theorem IsReal.coe (r : ℝ) : IsReal (r : EReal) := ⟨r, rfl⟩

/-- Zero is finite. -/
theorem IsReal.zero : IsReal (0 : EReal) := ⟨0, rfl⟩

/-- One is finite. -/
theorem IsReal.one : IsReal (1 : EReal) := ⟨1, rfl⟩

/-- A natural number, seen as an extended real, is finite. -/
theorem IsReal.natCast (n : ℕ) : IsReal (n : EReal) := ⟨(n : ℝ), rfl⟩

/-- A finite extended real is not `⊤`. -/
theorem IsReal.ne_top {x : EReal} (hx : IsReal x) : x ≠ ⊤ := by
  obtain ⟨a, rfl⟩ := hx; exact EReal.coe_ne_top a

/-- A finite extended real is not `⊥`. -/
theorem IsReal.ne_bot {x : EReal} (hx : IsReal x) : x ≠ ⊥ := by
  obtain ⟨a, rfl⟩ := hx; exact EReal.coe_ne_bot a

/-- An extended real that is neither `⊤` nor `⊥` is finite. -/
theorem isReal_of_ne {x : EReal} (ht : x ≠ ⊤) (hb : x ≠ ⊥) : IsReal x := by
  induction x using EReal.rec with
  | bot => exact absurd rfl hb
  | top => exact absurd rfl ht
  | coe r => exact ⟨r, rfl⟩

/-- Finite means: neither infinity. -/
theorem isReal_iff {x : EReal} : IsReal x ↔ x ≠ ⊤ ∧ x ≠ ⊥ :=
  ⟨fun h => ⟨h.ne_top, h.ne_bot⟩, fun h => isReal_of_ne h.1 h.2⟩

/-- An extended real whose absolute value `max x (-x)` is below `⊤` is finite. -/
theorem isReal_of_abs_lt_top {x : EReal} (h : max x (-x) < ⊤) : IsReal x := by
  induction x using EReal.rec with
  | bot => simp at h
  | top => simp at h
  | coe r => exact ⟨r, rfl⟩

/-- The sum of two finite extended reals is finite. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a finite extended real is finite. -/
theorem IsReal.neg {x : EReal} (hx : IsReal x) : IsReal (-x) := by
  obtain ⟨a, rfl⟩ := hx; exact ⟨-a, (EReal.coe_neg a).symm⟩

/-- The difference of two finite extended reals is finite. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two finite extended reals is finite. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The embedding of the reals commutes with `max`. -/
theorem coe_max (a b : ℝ) : ((max a b : ℝ) : EReal) = max (a : EReal) (b : EReal) :=
  EReal.coe_strictMono.monotone.map_max

/-- The embedding of the reals commutes with `min`. -/
theorem coe_min (a b : ℝ) : ((min a b : ℝ) : EReal) = min (a : EReal) (b : EReal) :=
  EReal.coe_strictMono.monotone.map_min

/-- The maximum of two finite extended reals is finite. -/
theorem IsReal.max {x y : EReal} (hx : IsReal x) (hy : IsReal y) : IsReal (max x y) := by
  obtain ⟨a, rfl⟩ := hx; obtain ⟨b, rfl⟩ := hy; exact ⟨_, (coe_max a b).symm⟩

/-- The minimum of two finite extended reals is finite. -/
theorem IsReal.min {x y : EReal} (hx : IsReal x) (hy : IsReal y) : IsReal (min x y) := by
  obtain ⟨a, rfl⟩ := hx; obtain ⟨b, rfl⟩ := hy; exact ⟨_, (coe_min a b).symm⟩

/-! ## Finite sums -/

/-- The embedding of the reals commutes with finite sums. -/
theorem coe_sum {ι : Type*} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- A finite sum of extended reals, each the image of a real, is the image of the real sum. -/
theorem sum_eq_coe_sum {ι : Type*} (s : Finset ι) (f : ι → EReal) (g : ι → ℝ)
    (h : ∀ i ∈ s, f i = (g i : EReal)) : ∑ i ∈ s, f i = ((∑ i ∈ s, g i : ℝ) : EReal) := by
  rw [coe_sum]; exact Finset.sum_congr rfl h

/-- A finite sum of finite extended reals is finite. -/
theorem IsReal.sum {ι : Type*} {s : Finset ι} {f : ι → EReal} (h : ∀ i ∈ s, IsReal (f i)) :
    IsReal (∑ i ∈ s, f i) := by
  classical
  revert h
  refine Finset.induction_on s ?_ ?_
  · intro _; rw [Finset.sum_empty]; exact IsReal.zero
  · intro a s ha ih h
    rw [Finset.sum_insert ha]
    exact (h a (Finset.mem_insert_self a s)).add (ih fun i hi => h i (Finset.mem_insert_of_mem hi))

/-- The sum over a whole finite type of finite extended reals is finite. -/
theorem IsReal.sum_univ {ι : Type*} [Fintype ι] {f : ι → EReal} (h : ∀ i, IsReal (f i)) :
    IsReal (∑ i, f i) :=
  IsReal.sum fun i _ => h i

/-- The sum of finite extended reals over the indices that satisfy a predicate is finite. -/
theorem IsReal.sum_filter {ι : Type*} [Fintype ι] (p : ι → Prop) [DecidablePred p] {f : ι → EReal}
    (h : ∀ i, IsReal (f i)) : IsReal (∑ i ∈ Finset.univ.filter p, f i) :=
  IsReal.sum fun i _ => h i

/-- A finite initial value plus a finite sum of finite extended reals is finite. -/
theorem IsReal.add_sum {ι : Type*} {s : Finset ι} {f : ι → EReal} {x : EReal} (hx : IsReal x)
    (h : ∀ i ∈ s, IsReal (f i)) : IsReal (x + ∑ i ∈ s, f i) :=
  hx.add (IsReal.sum h)

/-- A finite initial value plus the sum of finite extended reals over the indices that satisfy a
    predicate is finite. -/
theorem IsReal.add_sum_filter {ι : Type*} [Fintype ι] (p : ι → Prop) [DecidablePred p]
    {f : ι → EReal} {x : EReal} (hx : IsReal x) (h : ∀ i, IsReal (f i)) :
    IsReal (x + ∑ i ∈ Finset.univ.filter p, f i) :=
  hx.add (IsReal.sum_filter p h)

/-- A sum of ones over a finite set is the number of its elements. -/
theorem sum_one_eq_card {ι : Type*} (s : Finset ι) :
    ∑ _j ∈ s, (1 : EReal) = ((s.card : ℝ) : EReal) := by
  have h : ∑ _j ∈ s, (1 : EReal) = ∑ _j ∈ s, ((1 : ℝ) : EReal) := rfl
  rw [h, ← coe_sum, Finset.sum_const, nsmul_eq_mul, mul_one]

/-- A sum of one real constant over a finite set is the number of its elements times the constant. -/
theorem sum_const_coe {ι : Type*} (s : Finset ι) (c : ℝ) :
    ∑ _j ∈ s, (c : EReal) = (((s.card : ℝ) * c : ℝ) : EReal) := by
  rw [← coe_sum, Finset.sum_const, nsmul_eq_mul]

/-! ## The quotient by a nonzero real -/

/-- The ideal quotient of the images of two reals, the divisor nonzero, is the image of the real
    quotient. -/
theorem div_coe_coe (a : ℝ) {c : ℝ} (hc : c ≠ 0) :
    Idealize.ShloMosaic.Ideal.div (a : EReal) (c : EReal) = ((a / c : ℝ) : EReal) := by
  rw [Idealize.ShloMosaic.Ideal.div_coe hc, ← EReal.coe_mul, mul_one_div]

/-- The ideal quotient of a finite extended real by a nonzero real is finite. -/
theorem IsReal.div {x : EReal} (hx : IsReal x) {c : ℝ} (hc : c ≠ 0) :
    IsReal (Idealize.ShloMosaic.Ideal.div x (c : EReal)) := by
  obtain ⟨a, rfl⟩ := hx; exact ⟨a / c, div_coe_coe a hc⟩

/-- Dividing any extended real by a nonzero real is multiplying it by the quotient of one by that
    real (the reciprocal), at the infinities too. -/
theorem div_eq_mul_one_div {c : ℝ} (hc : c ≠ 0) (x : EReal) :
    Idealize.ShloMosaic.Ideal.div x (c : EReal)
      = x * Idealize.ShloMosaic.Ideal.div 1 (c : EReal) := by
  rw [Idealize.ShloMosaic.Ideal.div_coe hc, Idealize.ShloMosaic.Ideal.div_coe hc, one_mul]

/-- The quotient of one by a nonzero real is the image of the real reciprocal. -/
theorem one_div_coe {c : ℝ} (hc : c ≠ 0) :
    Idealize.ShloMosaic.Ideal.div 1 (c : EReal) = ((1 / c : ℝ) : EReal) := by
  rw [Idealize.ShloMosaic.Ideal.div_coe hc, one_mul]

/-- The maximum of one and a natural number is the image of the real `max 1 k`. -/
theorem max_one_natCast_eq (k : ℕ) :
    max (1 : EReal) ((k : ℝ) : EReal) = ((max 1 (k : ℝ) : ℝ) : EReal) := by
  rw [coe_max, EReal.coe_one]

/-- The maximum of one and a natural number is a real that is at least one, hence not zero. -/
theorem max_one_natCast (k : ℕ) :
    ∃ r : ℝ, r ≠ 0 ∧ max (1 : EReal) ((k : ℝ) : EReal) = (r : EReal) :=
  ⟨max 1 (k : ℝ), (lt_of_lt_of_le one_pos (le_max_left _ _)).ne', max_one_natCast_eq k⟩

/-- The same with the lower bound kept: the maximum of one and a natural number is a real `r ≥ 1`. -/
theorem max_one_natCast_ge (k : ℕ) :
    ∃ r : ℝ, 1 ≤ r ∧ max (1 : EReal) ((k : ℝ) : EReal) = (r : EReal) :=
  ⟨max 1 (k : ℝ), le_max_left _ _, max_one_natCast_eq k⟩

/-- For a natural number `k ≥ 1` the maximum of one and `k` is `k`. -/
theorem max_one_natCast_of_pos {k : ℕ} (hk : 1 ≤ k) :
    max (1 : EReal) ((k : ℝ) : EReal) = ((k : ℝ) : EReal) := by
  rw [max_one_natCast_eq, max_eq_right (by exact_mod_cast hk)]

/-- The same with the operands of `max` in the other order. -/
theorem max_natCast_one (k : ℕ) :
    ∃ r : ℝ, r ≠ 0 ∧ max ((k : ℝ) : EReal) (1 : EReal) = (r : EReal) := by
  rw [max_comm]; exact max_one_natCast k

/-- Zero plus a sum of ones over a finite set is the number of its elements. -/
theorem zero_add_sum_one_eq_card {ι : Type*} (s : Finset ι) :
    (0 : EReal) + ∑ _j ∈ s, (1 : EReal) = ((s.card : ℝ) : EReal) := by
  rw [zero_add, sum_one_eq_card]

/-- Dividing any extended real by a divisor that is a nonzero real is multiplying it by the quotient
    of one by that divisor. -/
theorem div_eq_mul_one_div_of_real {c : EReal} (hc : ∃ r : ℝ, r ≠ 0 ∧ c = (r : EReal)) (x : EReal) :
    Idealize.ShloMosaic.Ideal.div x c = x * Idealize.ShloMosaic.Ideal.div 1 c := by
  obtain ⟨r, hr, rfl⟩ := hc; exact div_eq_mul_one_div hr x

/-- The quotient of a finite extended real by a divisor that is a nonzero real is finite. -/
theorem IsReal.div_of_real {x c : EReal} (hx : IsReal x) (hc : ∃ r : ℝ, r ≠ 0 ∧ c = (r : EReal)) :
    IsReal (Idealize.ShloMosaic.Ideal.div x c) := by
  obtain ⟨r, hr, rfl⟩ := hc; exact hx.div hr

/-- Dividing by the maximum of one and a natural number is multiplying by the quotient of one by
    that maximum: a mean over a group of `k` elements, the empty group counted as one. -/
theorem div_max_one_eq_mul (k : ℕ) (x : EReal) :
    Idealize.ShloMosaic.Ideal.div x (max (1 : EReal) ((k : ℝ) : EReal))
      = x * Idealize.ShloMosaic.Ideal.div 1 (max (1 : EReal) ((k : ℝ) : EReal)) :=
  div_eq_mul_one_div_of_real (max_one_natCast k) x

/-- The quotient of a finite extended real by the maximum of one and a natural number is finite. -/
theorem IsReal.div_max_one {x : EReal} (hx : IsReal x) (k : ℕ) :
    IsReal (Idealize.ShloMosaic.Ideal.div x (Max.max (1 : EReal) ((k : ℝ) : EReal))) :=
  hx.div_of_real (max_one_natCast k)

/-! ## Regrouping a sum into tiles -/

/-- A sum over `a * b` consecutive indices is the sum over `a` tiles of the sums over the `b`
    consecutive indices of each tile: index `t * b + r` is position `r` of tile `t`. -/
theorem sum_tiles {M : Type*} [AddCommMonoid M] (a b : ℕ) (f : ℕ → M) :
    ∑ t : Fin a, ∑ r : Fin b, f (t.val * b + r.val) = ∑ i : Fin (a * b), f i.val := by
  rw [← Fintype.sum_prod_type' (f := fun (t : Fin a) (r : Fin b) => f (t.val * b + r.val))]
  refine Fintype.sum_equiv finProdFinEquiv _ _ fun x => ?_
  have hx : (finProdFinEquiv x).val = x.1.val * b + x.2.val := by
    show x.2.val + b * x.1.val = x.1.val * b + x.2.val
    rw [Nat.mul_comm, Nat.add_comm]
  rw [hx]

/-- The terms of a sum over `a * b` consecutive indices whose index lies in tile `t` (quotient by
    `b` equal to `t`) are the `b` terms at `t * b + r`. -/
theorem sum_filter_tile {M : Type*} [AddCommMonoid M] (a b t : ℕ) (ht : t < a) (f : ℕ → M) :
    ∑ i ∈ Finset.univ.filter (fun i : Fin (a * b) => i.val / b = t), f i.val
      = ∑ r : Fin b, f (t * b + r.val) := by
  have hlt : ∀ r : Fin b, t * b + r.val < a * b := fun r =>
    calc t * b + r.val < t * b + b := Nat.add_lt_add_left r.isLt _
      _ = (t + 1) * b := (Nat.succ_mul t b).symm
      _ ≤ a * b := Nat.mul_le_mul_right b ht
  symm
  refine Finset.sum_bij (fun r _ => (⟨t * b + r.val, hlt r⟩ : Fin (a * b))) ?_ ?_ ?_ ?_
  · intro r _
    have hb : 0 < b := Nat.lt_of_le_of_lt (Nat.zero_le _) r.isLt
    simp only [Finset.mem_filter, Finset.mem_univ, true_and]
    rw [Nat.add_comm, Nat.add_mul_div_right _ _ hb, Nat.div_eq_of_lt r.isLt, Nat.zero_add]
  · intro r _ r' _ h
    have h' : t * b + r.val = t * b + r'.val := congrArg Fin.val h
    exact Fin.ext (Nat.add_left_cancel h')
  · intro i hi
    simp only [Finset.mem_filter, Finset.mem_univ, true_and] at hi
    have hab : 0 < a * b := Nat.lt_of_le_of_lt (Nat.zero_le _) i.isLt
    have hb : 0 < b := Nat.pos_of_ne_zero fun h0 => by
      rw [h0, Nat.mul_zero] at hab; exact Nat.lt_irrefl _ hab
    refine ⟨⟨i.val % b, Nat.mod_lt _ hb⟩, Finset.mem_univ _, Fin.ext ?_⟩
    show t * b + i.val % b = i.val
    rw [← hi]; exact Nat.div_add_mod' i.val b
  · intro r _; rfl

/-! ## The variance identity -/

/-- On the reals: the mean of the squared deviations from the mean is the mean of the squares minus
    the square of the mean, `N` being the number of terms. -/
theorem real_variance {ι : Type*} [Fintype ι] (g : ι → ℝ) (N : ℝ) (hN : N ≠ 0)
    (hcard : (Fintype.card ι : ℝ) = N) :
    (∑ i, (g i - (∑ j, g j) / N) * (g i - (∑ j, g j) / N)) / N
      = (∑ i, g i * g i) / N - ((∑ j, g j) / N) * ((∑ j, g j) / N) := by
  set m : ℝ := (∑ j, g j) / N with hm
  have h1 : ∑ i, (g i - m) * (g i - m)
      = (∑ i, g i * g i) - 2 * m * (∑ i, g i) + N * (m * m) := by
    have h2 : ∀ i, (g i - m) * (g i - m) = g i * g i - 2 * m * g i + m * m := fun i => by ring
    simp only [h2, Finset.sum_add_distrib, Finset.sum_sub_distrib, ← Finset.mul_sum,
      Finset.sum_const, Finset.card_univ, nsmul_eq_mul, hcard]
    ring
  have hS : ∑ j, g j = m * N := by rw [hm]; field_simp
  rw [h1, hS]
  field_simp
  ring

/-- On the extended reals, through the ideal quotient: for finite `h i` and `N` the (nonzero) number
    of terms, with `μ = (Σ h) / N`, the quotient by `N` of the sum of the squared deviations
    `(h i - μ) * (h i - μ)` is the quotient by `N` of the sum of the squares minus `μ * μ`. -/
theorem variance_eq {ι : Type*} [Fintype ι] (h : ι → EReal) (hfin : ∀ i, IsReal (h i)) (N : ℝ)
    (hN : N ≠ 0) (hcard : (Fintype.card ι : ℝ) = N) :
    Idealize.ShloMosaic.Ideal.div
        (∑ i, (h i - Idealize.ShloMosaic.Ideal.div (∑ j, h j) (N : EReal))
          * (h i - Idealize.ShloMosaic.Ideal.div (∑ j, h j) (N : EReal))) (N : EReal)
      = Idealize.ShloMosaic.Ideal.div (∑ i, h i * h i) (N : EReal)
        - Idealize.ShloMosaic.Ideal.div (∑ j, h j) (N : EReal)
          * Idealize.ShloMosaic.Ideal.div (∑ j, h j) (N : EReal) := by
  obtain ⟨g, rfl⟩ : ∃ g : ι → ℝ, h = fun i => (g i : EReal) :=
    ⟨fun i => (hfin i).choose, funext fun i => (hfin i).choose_spec⟩
  dsimp only
  have hμ : Idealize.ShloMosaic.Ideal.div (∑ j, ((g j : ℝ) : EReal)) (N : EReal)
      = (((∑ j, g j) / N : ℝ) : EReal) := by
    rw [← coe_sum, div_coe_coe _ hN]
  rw [hμ]
  have h1 : ∑ i, (((g i : ℝ) : EReal) - (((∑ j, g j) / N : ℝ) : EReal))
        * (((g i : ℝ) : EReal) - (((∑ j, g j) / N : ℝ) : EReal))
      = ((∑ i, (g i - (∑ j, g j) / N) * (g i - (∑ j, g j) / N) : ℝ) : EReal) := by
    rw [coe_sum]; exact Finset.sum_congr rfl fun i _ => by rw [EReal.coe_mul, EReal.coe_sub]
  have h2 : ∑ i, ((g i : ℝ) : EReal) * ((g i : ℝ) : EReal) = ((∑ i, g i * g i : ℝ) : EReal) := by
    rw [coe_sum]; exact Finset.sum_congr rfl fun i _ => by rw [EReal.coe_mul]
  rw [h1, h2, div_coe_coe _ hN, div_coe_coe _ hN, ← EReal.coe_mul, ← EReal.coe_sub,
    real_variance g N hN hcard]

/-- The mean `(Σ h) / N` of finite extended reals, `N` a nonzero real, is finite. -/
theorem isReal_mean {ι : Type*} [Fintype ι] (h : ι → EReal) (hfin : ∀ i, IsReal (h i)) (N : ℝ)
    (hN : N ≠ 0) : IsReal (Idealize.ShloMosaic.Ideal.div (∑ j, h j) (N : EReal)) :=
  (IsReal.sum_univ hfin).div hN

/-- The mean of the squares minus the square of the mean, of finite extended reals, is finite. -/
theorem isReal_variance {ι : Type*} [Fintype ι] (h : ι → EReal) (hfin : ∀ i, IsReal (h i)) (N : ℝ)
    (hN : N ≠ 0) :
    IsReal (Idealize.ShloMosaic.Ideal.div (∑ i, h i * h i) (N : EReal)
        - Idealize.ShloMosaic.Ideal.div (∑ j, h j) (N : EReal)
          * Idealize.ShloMosaic.Ideal.div (∑ j, h j) (N : EReal)) :=
  ((IsReal.sum_univ fun i => (hfin i).mul (hfin i)).div hN).sub
    ((isReal_mean h hfin N hN).mul (isReal_mean h hfin N hN))

/-- The mean of the squared deviations from the mean, of finite extended reals, is finite. -/
theorem isReal_variance_centered {ι : Type*} [Fintype ι] (h : ι → EReal) (hfin : ∀ i, IsReal (h i))
    (N : ℝ) (hN : N ≠ 0) :
    IsReal (Idealize.ShloMosaic.Ideal.div
        (∑ i, (h i - Idealize.ShloMosaic.Ideal.div (∑ j, h j) (N : EReal))
          * (h i - Idealize.ShloMosaic.Ideal.div (∑ j, h j) (N : EReal))) (N : EReal)) :=
  (IsReal.sum_univ fun i =>
    ((hfin i).sub (isReal_mean h hfin N hN)).mul ((hfin i).sub (isReal_mean h hfin N hN))).div hN

/-- Regrouping into tiles with the total number of terms named: for `a * b = n`. -/
theorem sum_tiles_of_eq {M : Type*} [AddCommMonoid M] (a b n : ℕ) (hn : a * b = n) (f : ℕ → M) :
    ∑ t : Fin a, ∑ r : Fin b, f (t.val * b + r.val) = ∑ i : Fin n, f i.val := by
  subst hn; exact sum_tiles a b f

/-- The terms of one tile with the total number of terms named: for `a * b = n`. -/
theorem sum_filter_tile_of_eq {M : Type*} [AddCommMonoid M] (a b n t : ℕ) (hn : a * b = n)
    (ht : t < a) (f : ℕ → M) :
    ∑ i ∈ Finset.univ.filter (fun i : Fin n => i.val / b = t), f i.val
      = ∑ r : Fin b, f (t * b + r.val) := by
  subst hn; exact sum_filter_tile a b t ht f

/-! ## Statistics from per-tile partial sums -/

/-- The mean computed from `a` per-tile sums of `b` consecutive terms is the mean computed from the one
    sum over all `a * b` terms (each outer sum started from zero), whatever the divisor. -/
theorem tiled_mean_eq (a b : ℕ) (f : ℕ → EReal) (c : EReal) :
    Idealize.ShloMosaic.Ideal.div (0 + ∑ t : Fin a, ∑ r : Fin b, f (t.val * b + r.val)) c
      = Idealize.ShloMosaic.Ideal.div (0 + ∑ i : Fin (a * b), f i.val) c := by
  rw [sum_tiles]

/-- The variance computed from per-tile partial sums, as the mean of the squares minus the square of
    the mean, is the variance computed over all `a * b` terms at once as the mean of the squared
    deviations from the mean — for finite terms, `N = a * b` nonzero, each outer sum started from
    zero. -/
theorem tiled_variance_eq (a b : ℕ) (f : ℕ → EReal) (hfin : ∀ i : Fin (a * b), IsReal (f i.val))
    (N : ℝ) (hN : N ≠ 0) (hcard : ((a * b : ℕ) : ℝ) = N) :
    Idealize.ShloMosaic.Ideal.div
          (0 + ∑ t : Fin a, ∑ r : Fin b, f (t.val * b + r.val) * f (t.val * b + r.val)) (N : EReal)
        - Idealize.ShloMosaic.Ideal.div (0 + ∑ t : Fin a, ∑ r : Fin b, f (t.val * b + r.val)) (N : EReal)
          * Idealize.ShloMosaic.Ideal.div (0 + ∑ t : Fin a, ∑ r : Fin b, f (t.val * b + r.val)) (N : EReal)
      = Idealize.ShloMosaic.Ideal.div
          (0 + ∑ i : Fin (a * b),
            (f i.val - Idealize.ShloMosaic.Ideal.div (0 + ∑ j : Fin (a * b), f j.val) (N : EReal))
              * (f i.val - Idealize.ShloMosaic.Ideal.div (0 + ∑ j : Fin (a * b), f j.val) (N : EReal)))
          (N : EReal) := by
  have hsq := sum_tiles a b fun n => f n * f n
  rw [sum_tiles a b f, hsq]
  simp only [zero_add]
  exact (variance_eq (fun i : Fin (a * b) => f i.val) hfin N hN
    (by rw [Fintype.card_fin]; exact hcard)).symm

/-- The tiled mean with the total number of terms named: for `a * b = n`. -/
theorem tiled_mean_eq_of_eq (a b n : ℕ) (hn : a * b = n) (f : ℕ → EReal) (c : EReal) :
    Idealize.ShloMosaic.Ideal.div (0 + ∑ t : Fin a, ∑ r : Fin b, f (t.val * b + r.val)) c
      = Idealize.ShloMosaic.Ideal.div (0 + ∑ i : Fin n, f i.val) c := by
  subst hn; exact tiled_mean_eq a b f c

/-- The tiled variance with the total number of terms named: for `a * b = n` and `N = n` nonzero. -/
theorem tiled_variance_eq_of_eq (a b n : ℕ) (hn : a * b = n) (f : ℕ → EReal)
    (hfin : ∀ i : Fin n, IsReal (f i.val)) (N : ℝ) (hN : N ≠ 0) (hcard : (n : ℝ) = N) :
    Idealize.ShloMosaic.Ideal.div
          (0 + ∑ t : Fin a, ∑ r : Fin b, f (t.val * b + r.val) * f (t.val * b + r.val)) (N : EReal)
        - Idealize.ShloMosaic.Ideal.div (0 + ∑ t : Fin a, ∑ r : Fin b, f (t.val * b + r.val)) (N : EReal)
          * Idealize.ShloMosaic.Ideal.div (0 + ∑ t : Fin a, ∑ r : Fin b, f (t.val * b + r.val)) (N : EReal)
      = Idealize.ShloMosaic.Ideal.div
          (0 + ∑ i : Fin n,
            (f i.val - Idealize.ShloMosaic.Ideal.div (0 + ∑ j : Fin n, f j.val) (N : EReal))
              * (f i.val - Idealize.ShloMosaic.Ideal.div (0 + ∑ j : Fin n, f j.val) (N : EReal)))
          (N : EReal) := by
  subst hn; exact tiled_variance_eq a b f hfin N hN hcard

end Cert.LibERealStats
-- ==== Proof.StatsRegionValue.lean ====
/-
  The values the statistics region leaves, on the extended reals. The first accumulator after point n holds, at
  (row r, lane l), the sum over the points t ≤ n of the input's entry (t / 4, r, (t % 4) * 1024 + l) — the zero word it
  starts from is the real zero —; the second the sum of those entries' squares. At the last point each output's row r
  is the sum of its accumulator's 1024 lanes, so it is the double sum over lanes and points; the points are 32 groups
  of 4 and a batch entry's 4096 positions are 4 tiles of 1024 lanes, so that double sum is the channel's sum over batch
  entries and positions. Only commutativity and associativity of addition are used: no finiteness is needed.
-/
import proofs.«110882_g2000100512545763_pallasbulk_79_2_alg».proof.Proof.StatsRegion
import proofs.«110882_g2000100512545763_pallasbulk_79_2_alg».proof.Proof.BatchStats
import proofs.«110882_g2000100512545763_pallasbulk_79_2_alg».proof.Proof.LibERealStats
import Idealize.ShloMosaic.Lib.ValueIdx
import Idealize.ShloMosaic.Lib.ValueLayout
import Idealize.ShloMosaic.PureOps.Ideal.Laws
import Idealize.ShloMosaic.Lib.Pipeline.Value

set_option maxRecDepth 16384

noncomputable section

namespace Cert.ReferenceIdeal.Stats

open Cert.ReferenceIdeal Cert.ReferenceIdeal.Gen
open Idealize.ShloMosaic Idealize.ShloMosaic.TcCoe Idealize.ShloMosaic.ValueIdx
open Idealize.SL Idealize.SL.Sem
open Idealize.ShloMosaic.Pipeline (Dat Cfg Window)
open scoped BigOperators

/-! ## The body's arithmetic at an entry, on the extended reals -/

/-- The zero splat is zero at every entry. -/
theorem pay1_apply (r : Fin 256) (l : Fin 1024) : k0_pay1 (F := Ideal) (ix2 r l) = 0 := by
  show shapeCast S256x1024 (broadcast S256x1024 (Scalar.ofBits (F := Ideal) .f32 0x00000000#32)) _ (ix2 r l) = 0
  rw [shapeCast_self]
  exact Ideal.ofBits_zero_f32

theorem pay2_apply (r : Fin 256) (l : Fin 1024) : k0_pay2 (F := Ideal) (ix2 r l) = 0 := pay1_apply r l

/-- The loaded block without its leading unit axis. -/
theorem pay3_apply (v5 : Vec Ideal S1x256x1024 .f32) (r : Fin 256) (l : Fin 1024) :
    k0_pay3 v5 (ix2 r l) = v5 (ix3 (0 : Fin 1) r l) :=
  shapeCast_1ab_ab_apply (a := 256) (b := 1024) v5 _ r l

/-- The first accumulator's update: what it held plus the block's entry. -/
theorem pay4_apply (v5 : Vec Ideal S1x256x1024 .f32) (v7 : Vec Ideal S256x1024 .f32) (r : Fin 256) (l : Fin 1024) :
    k0_pay4 v5 v7 (ix2 r l) = v7 (ix2 r l) + v5 (ix3 (0 : Fin 1) r l) := by
  show shapeCast S256x1024 (addf v7 (k0_pay3 v5)) _ (ix2 r l) = _
  rw [shapeCast_self]
  show v7 (ix2 r l) + k0_pay3 v5 (ix2 r l) = _
  rw [pay3_apply]

/-- The second accumulator's update: what it held plus the square of the block's entry. -/
theorem pay5_apply (v5 : Vec Ideal S1x256x1024 .f32) (v12 : Vec Ideal S256x1024 .f32) (r : Fin 256) (l : Fin 1024) :
    k0_pay5 v5 v12 (ix2 r l) = v12 (ix2 r l) + v5 (ix3 (0 : Fin 1) r l) * v5 (ix3 (0 : Fin 1) r l) := by
  show shapeCast S256x1024 (addf v12 (mulf (k0_pay3 v5) (k0_pay3 v5))) _ (ix2 r l) = _
  rw [shapeCast_self]
  show v12 (ix2 r l) + k0_pay3 v5 (ix2 r l) * k0_pay3 v5 (ix2 r l) = _
  rw [pay3_apply]

/-- The lane sum of a 256 x 1024 array from the zero word, read at row `r`: the sum of the row's 1024 entries. -/
theorem laneSum_apply (v : Vec Ideal S256x1024 .f32) (h : S256x1024.Reduces [1] S256) (hφ : FKind.Formats .f32)
    (hacc : (0x00000000#32 : BitVec 32) = FKind.add.neutral .f32 hφ) (r : Fin 256) :
    multiReduction (F := Ideal) .add [1] S256 v 0x00000000#32 h hφ hacc (ix1 r) = ∑ l : Fin 1024, v (ix2 r l) := by
  refine (Ideal.multiReduction_add_single v 0x00000000#32 h hφ hacc (ix1 r)).trans ?_
  refine Finset.sum_congr rfl fun l _ => congrArg v ?_
  funext a; apply Fin.ext
  match a with
  | ⟨0, _⟩ => rfl
  | ⟨1, _⟩ => rfl

/-- The first output's payload at row `r`: the lane sum of the accumulator's row. -/
theorem pay6_apply (v23 : Vec Ideal S256x1024 .f32) (r : Fin 256) :
    k0_pay6 v23 (ix2 r (0 : Fin 1)) = ∑ l : Fin 1024, v23 (ix2 r l) := by
  unfold k0_pay6
  refine (shapeCast_apply _ _ (ix2 r (0 : Fin 1)) (ix1 r) (by
    rw [Shape.rowMajor_val_one, Shape.rowMajor_val_two]
    show r.val = r.val * 1 + 0
    omega)).trans ?_
  exact laneSum_apply v23 _ _ _ r

theorem pay7_apply (v27 : Vec Ideal S256x1024 .f32) (r : Fin 256) :
    k0_pay7 v27 (ix2 r (0 : Fin 1)) = ∑ l : Fin 1024, v27 (ix2 r l) := by
  unfold k0_pay7
  refine (shapeCast_apply _ _ (ix2 r (0 : Fin 1)) (ix1 r) (by
    rw [Shape.rowMajor_val_one, Shape.rowMajor_val_two]
    show r.val = r.val * 1 + 0
    omega)).trans ?_
  exact laneSum_apply v27 _ _ _ r

/-! ## Regrouping: (point, lane) against (batch entry, position) -/

/-- Summing over the 1024 lanes and the 128 points, point `t` holding batch entry `t / 4` and positions
    `(t % 4) * 1024 ..`, is summing over the 32 batch entries and the 4096 positions: the points are 32 groups of 4
    and the positions 4 tiles of 1024 (`sum_tiles_of_eq` twice); addition on the extended reals is commutative and
    associative, which is all the exchange of the two sums needs. -/
theorem regroup (Y : ℕ → ℕ → EReal) :
    ∑ l : Fin 1024, ∑ t ∈ Finset.range 128, Y (t / 4) (t % 4 * 1024 + l.val)
      = ∑ n : Fin 32, ∑ j : Fin 4096, Y n.val j.val := by
  rw [Finset.sum_comm, Finset.sum_range (fun t => ∑ l : Fin 1024, Y (t / 4) (t % 4 * 1024 + l.val)),
    ← Cert.LibERealStats.sum_tiles_of_eq 32 4 128 rfl (fun t => ∑ l : Fin 1024, Y (t / 4) (t % 4 * 1024 + l.val))]
  refine Finset.sum_congr rfl fun n _ => ?_
  rw [← Cert.LibERealStats.sum_tiles_of_eq 4 1024 4096 rfl (fun j => Y n.val j)]
  refine Finset.sum_congr rfl fun k _ => Finset.sum_congr rfl fun l _ => ?_
  have hk : k.val < 4 := k.isLt
  have h1 : (n.val * 4 + k.val) / 4 = n.val := by omega
  have h2 : (n.val * 4 + k.val) % 4 = k.val := by omega
  rw [h1, h2]

section Region
variable (V : (c : Dev nD) → (b : Ref sig .tc) → Buf (Elt Ideal) ((c : Thread nD τ).loc b))

/-! ## The input block at a point -/

/-- The input window's index map over the grid: point `t` reads block (t / 4, 0, t % 4). -/
theorem idx_facts0 : ∀ t : Fin cfg0.N, win0_0.index t (0 : Fin 3) = t.val / 4 ∧ win0_0.index t (1 : Fin 3) = 0
    ∧ win0_0.index t (2 : Fin 3) = t.val % 4 :=
  (by decide +kernel : ∀ t : Fin grid0.N, _)

/-- The outputs' index maps are constant: the one block is the whole array. -/
theorem idx_facts1 : ∀ t : Fin cfg0.N, win0_1.index t (0 : Fin 2) = 0 ∧ win0_1.index t (1 : Fin 2) = 0 :=
  (by decide +kernel : ∀ t : Fin grid0.N, _)
theorem idx_facts2 : ∀ t : Fin cfg0.N, win0_2.index t (0 : Fin 2) = 0 ∧ win0_2.index t (1 : Fin 2) = 0 :=
  (by decide +kernel : ∀ t : Fin grid0.N, _)

/-- Entry (0, r, l) of the block at point `t` is entry (t / 4, r, (t % 4) * 1024 + l) of the input array. -/
theorem iblk_apply (c : Dev nD) (t : Fin cfg0.N) (r : Fin 256) (l : Fin 1024) (hn : t.val / 4 < 32)
    (hj : t.val % 4 * 1024 + l.val < 4096) :
    iblk0 V c 0 t (ix3 (0 : Fin 1) r l) = V c main_v0 (ix3 ⟨t.val / 4, hn⟩ r ⟨t.val % 4 * 1024 + l.val, hj⟩) := by
  obtain ⟨e0, e1, e2⟩ := idx_facts0 t
  show V c main_v0 (((cfg0.win 0).blk t).view.emb (ix3 (0 : Fin 1) r l)) = _
  refine congrArg (V c main_v0) ?_
  funext a; apply Fin.ext
  match a with
  | ⟨0, _⟩ => show win0_0.index t (0 : Fin 3) * 1 + 1 * 0 = t.val / 4; omega
  | ⟨1, _⟩ => show win0_0.index t (1 : Fin 3) * 256 + 1 * r.val = r.val; omega
  | ⟨2, _⟩ => show win0_0.index t (2 : Fin 3) * 1024 + 1 * l.val = t.val % 4 * 1024 + l.val; omega

/-- The input array's channel `r` as a function of two naturals (zero off the array). -/
def chan (c : Dev nD) (r : Fin 256) : ℕ → ℕ → EReal := fun n j =>
  if h : n < 32 ∧ j < 4096 then V c main_v0 (ix3 ⟨n, h.1⟩ r ⟨j, h.2⟩) else 0

theorem chan_of_lt (c : Dev nD) (r : Fin 256) (n j : ℕ) (hn : n < 32) (hj : j < 4096) :
    chan V c r n j = V c main_v0 (ix3 ⟨n, hn⟩ r ⟨j, hj⟩) := dif_pos ⟨hn, hj⟩

theorem chan_apply (c : Dev nD) (r : Fin 256) (n : Fin 32) (j : Fin 4096) :
    chan V c r n.val j.val = V c main_v0 (ix3 n r j) := dif_pos ⟨n.isLt, j.isLt⟩

/-- The block the body loads at position `t < 128`, at (0, r, l). -/
theorem blkAt_apply (c : Dev nD) (t : ℕ) (ht : t < 128) (r : Fin 256) (l : Fin 1024) :
    blkAt V c t (ix3 (0 : Fin 1) r l) = chan V c r (t / 4) (t % 4 * 1024 + l.val) := by
  have hl : l.val < 1024 := l.isLt
  have hn : t / 4 < 32 := by omega
  have hj : t % 4 * 1024 + l.val < 4096 := by omega
  have hN : t < cfg0.N := lt_of_lt_of_eq ht N_0.symm
  refine ((congrFun (blkAt_val V c (⟨t, hN⟩ : Fin cfg0.N)) _).trans (iblk_apply V c (⟨t, hN⟩ : Fin cfg0.N) r l hn hj)).trans ?_
  exact (chan_of_lt V c r (t / 4) (t % 4 * 1024 + l.val) hn hj).symm

/-! ## The accumulators, entry by entry -/

/-- The first accumulator after position `n`: the blocks' entries of the positions up to `n`, summed. -/
theorem acc_apply (c : Dev nD) (r : Fin 256) (l : Fin 1024) :
    ∀ n : ℕ, acc V c n (ix2 r l) = ∑ t ∈ Finset.range (n + 1), blkAt V c t (ix3 (0 : Fin 1) r l)
  | 0 => by rw [acc_zero, pay4_apply, pay1_apply, zero_add, Finset.sum_range_one]
  | n + 1 => by rw [acc_succ, pay4_apply, acc_apply c r l n, Finset.sum_range_succ _ (n + 1)]

/-- The second accumulator after position `n`: the squares of those entries, summed. -/
theorem accsq_apply (c : Dev nD) (r : Fin 256) (l : Fin 1024) :
    ∀ n : ℕ, accsq V c n (ix2 r l)
      = ∑ t ∈ Finset.range (n + 1), blkAt V c t (ix3 (0 : Fin 1) r l) * blkAt V c t (ix3 (0 : Fin 1) r l)
  | 0 => by rw [accsq_zero, pay5_apply, pay2_apply, zero_add, Finset.sum_range_one]
  | n + 1 => by rw [accsq_succ, pay5_apply, accsq_apply c r l n, Finset.sum_range_succ _ (n + 1)]

/-- After the last point, row `r`'s lanes of the first accumulator sum to the channel's sum over batch and position; -/
theorem acc_last_sum (c : Dev nD) (r : Fin 256) :
    ∑ l : Fin 1024, acc V c 127 (ix2 r l) = Cert.BatchStats.chanSum (V c main_v0) r := by
  have h : ∀ l : Fin 1024, acc V c 127 (ix2 r l) = ∑ t ∈ Finset.range 128, chan V c r (t / 4) (t % 4 * 1024 + l.val) :=
    fun l => (acc_apply V c r l 127).trans (Finset.sum_congr rfl fun t ht => blkAt_apply V c t (Finset.mem_range.mp ht) r l)
  refine ((Finset.sum_congr rfl fun l _ => h l).trans (regroup (chan V c r))).trans ?_
  unfold Cert.BatchStats.chanSum
  exact Finset.sum_congr rfl fun n _ => Finset.sum_congr rfl fun j _ => chan_apply V c r n j

/-- and of the second to the channel's sum of squares. -/
theorem accsq_last_sum (c : Dev nD) (r : Fin 256) :
    ∑ l : Fin 1024, accsq V c 127 (ix2 r l) = Cert.BatchStats.chanSumSq (V c main_v0) r := by
  have h : ∀ l : Fin 1024, accsq V c 127 (ix2 r l)
      = ∑ t ∈ Finset.range 128, (fun n j => chan V c r n j * chan V c r n j) (t / 4) (t % 4 * 1024 + l.val) :=
    fun l => (accsq_apply V c r l 127).trans (Finset.sum_congr rfl fun t ht => by
      rw [blkAt_apply V c t (Finset.mem_range.mp ht) r l])
  refine ((Finset.sum_congr rfl fun l _ => h l).trans (regroup (fun n j => chan V c r n j * chan V c r n j))).trans ?_
  unfold Cert.BatchStats.chanSumSq
  exact Finset.sum_congr rfl fun n _ => Finset.sum_congr rfl fun j _ => by
    show chan V c r n.val j.val * chan V c r n.val j.val = _
    rw [chan_apply]

/-! ## The arrays after the region -/

/-- The input array is left as found. -/
theorem stats_in (c : Dev nD) : (dat0 V c).arrAt 0 cfg0.N = V c main_v0 :=
  ((dat0 V c).arrAt_in 0 rfl _).trans (A_eq0 V c 0)

/-- The last point is the one point that writes the outputs back. -/
theorem flush_last1 (t : Fin cfg0.N) (hf : (cfg0.win 1).flush t = true) : t.val = 127 := by
  have h := (flush0_1 t).mp hf
  have hN : t.val < 128 := lt_of_lt_of_eq t.isLt N_0
  omega
theorem flush_last2 (t : Fin cfg0.N) (hf : (cfg0.win 2).flush t = true) : t.val = 127 := by
  have h := (flush0_2 t).mp hf
  have hN : t.val < 128 := lt_of_lt_of_eq t.isLt N_0
  omega

/-- The point 127. -/
def lastPt : Fin cfg0.N := ⟨127, lt_of_lt_of_eq (by decide : 127 < 128) N_0.symm⟩

/-- An index of a 256 x 1 output is in the one block of the point that writes it back. -/
theorem mem_blk1 (t : Fin cfg0.N) (i : S256x1.Idx) :
    i ∈ ((cfg0.win 1).blk t).view.set ↔ ∀ a : Fin 2, win0_1.index t a * S256x1.size a ≤ (i a).val ∧ (i a).val < win0_1.index t a * S256x1.size a + S256x1.size a := by
  show i ∈ ((View.whole main_v1_0).slice (win0_1.rect t)).set ↔ _
  rw [View.set_slice_whole, Rect.mem_set_unit]
  exact Iff.rfl
theorem mem_blk2 (t : Fin cfg0.N) (i : S256x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v1_1).slice (win0_2.rect t)).set ↔ _
  rw [View.set_slice_whole, Rect.mem_set_unit]
  exact Iff.rfl

/-- What the last point writes back into the first output is the channel sums, read through its block. -/
theorem flushed1_eq (c : Dev nD) (t : Fin cfg0.N) (hf : (cfg0.win 1).flush t = true) :
    (dat0 V c).flushed 1 t
      = ((cfg0.win 1).blk t).view.read (Elt Ideal) (fun i : S256x1.Idx => Cert.BatchStats.chanSum (V c main_v0) (i 0)) := by
  show (cfg0.win 1).cut (grid0.coords t) ((dat0 V c).after 1 t) = _
  rw [after0_1, flush_last1 t hf]
  obtain ⟨e0, e1⟩ := idx_facts1 t
  funext j
  obtain ⟨r, u, rfl⟩ : ∃ (r : Fin 256) (u : Fin 1), j = ix2 r u := ⟨j 0, j 1, eq_ix2 j⟩
  obtain rfl : u = 0 := Subsingleton.elim _ _
  show k0_pay6 (acc V c 127) (ix2 r (0 : Fin 1)) = Cert.BatchStats.chanSum (V c main_v0) ((((cfg0.win 1).blk t).view.emb (ix2 r (0 : Fin 1))) 0)
  rw [pay6_apply, acc_last_sum]
  refine congrArg (Cert.BatchStats.chanSum (V c main_v0)) (Fin.ext ?_)
  show r.val = win0_1.index t (0 : Fin 2) * 256 + 1 * r.val
  omega

theorem flushed2_eq (c : Dev nD) (t : Fin cfg0.N) (hf : (cfg0.win 2).flush t = true) :
    (dat0 V c).flushed 2 t
      = ((cfg0.win 2).blk t).view.read (Elt Ideal) (fun i : S256x1.Idx => Cert.BatchStats.chanSumSq (V c main_v0) (i 0)) := by
  show (cfg0.win 2).cut (grid0.coords t) ((dat0 V c).after 2 t) = _
  rw [after0_2, flush_last2 t hf]
  obtain ⟨e0, e1⟩ := idx_facts2 t
  funext j
  obtain ⟨r, u, rfl⟩ : ∃ (r : Fin 256) (u : Fin 1), j = ix2 r u := ⟨j 0, j 1, eq_ix2 j⟩
  obtain rfl : u = 0 := Subsingleton.elim _ _
  show k0_pay7 (accsq V c 127) (ix2 r (0 : Fin 1)) = Cert.BatchStats.chanSumSq (V c main_v0) ((((cfg0.win 2).blk t).view.emb (ix2 r (0 : Fin 1))) 0)
  rw [pay7_apply, accsq_last_sum]
  refine congrArg (Cert.BatchStats.chanSumSq (V c main_v0)) (Fin.ext ?_)
  show r.val = win0_2.index t (0 : Fin 2) * 256 + 1 * r.val
  omega

/-- THE FIRST OUTPUT after the region: each channel's sum over batch and position. -/
theorem sum_out (c : Dev nD) :
    (dat0 (F := Ideal) V c).arrAt 1 cfg0.N = fun i : S256x1.Idx => Cert.BatchStats.chanSum (V c main_v0) (i 0) :=
  (dat0 V c).arrAt_eq_of_cover 1 _ (fun t hf => flushed1_eq V c t hf) fun i => by
    refine ⟨lastPt, (flush0_1 lastPt).mpr rfl, ?_⟩
    rw [mem_blk1]
    obtain ⟨e0, e1⟩ := idx_facts1 lastPt
    have h0 : (i 0).val < 256 := (i 0).isLt
    have h1 : (i 1).val < 1 := (i 1).isLt
    intro a
    match a with
    | ⟨0, _⟩ => show win0_1.index lastPt (0 : Fin 2) * 256 ≤ (i 0).val ∧ (i 0).val < win0_1.index lastPt (0 : Fin 2) * 256 + 256; omega
    | ⟨1, _⟩ => show win0_1.index lastPt (1 : Fin 2) * 1 ≤ (i 1).val ∧ (i 1).val < win0_1.index lastPt (1 : Fin 2) * 1 + 1; omega

/-- THE SECOND OUTPUT after the region: each channel's sum of squares over batch and position. -/
theorem sumsq_out (c : Dev nD) :
    (dat0 (F := Ideal) V c).arrAt 2 cfg0.N = fun i : S256x1.Idx => Cert.BatchStats.chanSumSq (V c main_v0) (i 0) :=
  (dat0 V c).arrAt_eq_of_cover 2 _ (fun t hf => flushed2_eq V c t hf) fun i => by
    refine ⟨lastPt, (flush0_2 lastPt).mpr rfl, ?_⟩
    rw [mem_blk2]
    obtain ⟨e0, e1⟩ := idx_facts2 lastPt
    have h0 : (i 0).val < 256 := (i 0).isLt
    have h1 : (i 1).val < 1 := (i 1).isLt
    intro a
    match a with
    | ⟨0, _⟩ => show win0_2.index lastPt (0 : Fin 2) * 256 ≤ (i 0).val ∧ (i 0).val < win0_2.index lastPt (0 : Fin 2) * 256 + 256; omega
    | ⟨1, _⟩ => show win0_2.index lastPt (1 : Fin 2) * 1 ≤ (i 1).val ∧ (i 1).val < win0_2.index lastPt (1 : Fin 2) * 1 + 1; omega

end Region

end Cert.ReferenceIdeal.Stats
end
-- ==== Proof.TwoPassValue.lean ====
/-
  The reference's three results on the extended reals, read off its run. Through the boundaries of its run: the
  flattened input reaches both passes unchanged; the statistics pass leaves every channel's sum and sum of squares;
  the host arithmetic makes of them the specification's mean, variance, scale and shift (dividing by the count is
  multiplying by its reciprocal's word); the normalising pass leaves every entry times its channel's scale plus its
  channel's shift, which is the specification's normalised array; the last stretch folds the positions back and
  steps each running statistic a tenth of the way. No argument is written by any stretch or pass.
-/
import proofs.«110882_g2000100512545763_pallasbulk_79_2_alg».proof.Proof.TwoPassRun
import proofs.«110882_g2000100512545763_pallasbulk_79_2_alg».proof.Proof.TwoPassHost
import proofs.«110882_g2000100512545763_pallasbulk_79_2_alg».proof.Proof.NormRegionValue
import proofs.«110882_g2000100512545763_pallasbulk_79_2_alg».proof.Proof.StatsRegionValue
import proofs.«110882_g2000100512545763_pallasbulk_79_2_alg».proof.Proof.Gen.ReferenceIdeal.Regions
import proofs.«110882_g2000100512545763_pallasbulk_79_2_alg».proof.Proof.BatchStats

set_option maxRecDepth 16384

noncomputable section

/-! ## The results on the extended reals -/

namespace Cert.ReferenceIdeal.TwoPass

open Cert.ReferenceIdeal Cert.ReferenceIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- The flattened input, the weight and the bias as launched. -/
abbrev xin : BatchStats.A3.Idx → EReal := BatchStats.flat (m ((c : Thread nD τ).loc main_arg0))

/-! ### What no stretch and no region writes stays as launched -/

theorem W1_keeps (r : Ref sig .tc) (h : r ∉ (hostOps0_W : List (Ref sig .tc))) : W1 m ρ c r = m ((c : Thread nD τ).loc r) :=
  StableHlo.after_of_writes_sub hostOps0 _ hostOps0_writes h
theorem W2_keeps (r : Ref sig .tc) (h0 : r ∉ (hostOps0_W : List (Ref sig .tc))) (hr : ∀ w, Pipeline.arrRef spec0 w ≠ r) :
    W2 m ρ c r = m ((c : Thread nD τ).loc r) :=
  (W2_of_ne m ρ c r hr).trans (W1_keeps m ρ c r h0)
theorem W3_keeps (r : Ref sig .tc) (h0 : r ∉ (hostOps0_W : List (Ref sig .tc))) (hr : ∀ w, Pipeline.arrRef spec0 w ≠ r)
    (h1 : r ∉ (hostOps1_W : List (Ref sig .tc))) : W3 m ρ c r = m ((c : Thread nD τ).loc r) :=
  (StableHlo.after_of_writes_sub hostOps1 _ hostOps1_writes h1).trans (W2_keeps m ρ c r h0 hr)
theorem W4_keeps (r : Ref sig .tc) (h0 : r ∉ (hostOps0_W : List (Ref sig .tc))) (hr : ∀ w, Pipeline.arrRef spec0 w ≠ r)
    (h1 : r ∉ (hostOps1_W : List (Ref sig .tc))) (hr1 : ∀ w, Pipeline.arrRef spec1 w ≠ r) : W4 m ρ c r = m ((c : Thread nD τ).loc r) :=
  (W4_of_ne m ρ c r hr1).trans (W3_keeps m ρ c r h0 hr h1)
theorem W5_keeps (r : Ref sig .tc) (h0 : r ∉ (hostOps0_W : List (Ref sig .tc))) (hr : ∀ w, Pipeline.arrRef spec0 w ≠ r)
    (h1 : r ∉ (hostOps1_W : List (Ref sig .tc))) (hr1 : ∀ w, Pipeline.arrRef spec1 w ≠ r)
    (h2 : r ∉ (hostOps2_W : List (Ref sig .tc))) : W5 m ρ c r = m ((c : Thread nD τ).loc r) :=
  (StableHlo.after_of_writes_sub hostOps2 _ hostOps2_writes h2).trans (W4_keeps m ρ c r h0 hr h1 hr1)

/-! ### The statistics -/

theorem V1_x : V1 m ρ c main_v0 = xin m c := first_flat (W0 m ρ c)
theorem V2_x : V2 m ρ c main_v0 = xin m c :=
  (W2_arr m ρ c 0).trans ((Stats.stats_in (V1 m ρ) c).trans (V1_x m ρ c))
theorem V2_sum : (V2 m ρ c main_v1_0 : Col) = fun i => BatchStats.chanSum (xin m c) (i 0) :=
  by
  have h := (W2_arr m ρ c 1).trans (Stats.sum_out (V1 m ρ) c)
  rw [V1_x m ρ c] at h
  exact h
theorem V2_sumsq : (V2 m ρ c main_v1_1 : Col) = fun i => BatchStats.chanSumSq (xin m c) (i 0) :=
  by
  have h := (W2_arr m ρ c 2).trans (Stats.sumsq_out (V1 m ρ) c)
  rw [V1_x m ρ c] at h
  exact h
theorem V2_w : W2 m ρ c main_arg1 = m ((c : Thread nD τ).loc main_arg1) := W2_keeps m ρ c main_arg1 (by decide) (by decide)
theorem V2_b : W2 m ρ c main_arg2 = m ((c : Thread nD τ).loc main_arg2) := W2_keeps m ρ c main_arg2 (by decide) (by decide)

/-! ### The scale and shift columns, the mean and the variance -/

theorem V3_x : V3 m ρ c main_v0 = xin m c :=
  (StableHlo.after_of_writes_sub hostOps1 _ hostOps1_writes (by decide)).trans (V2_x m ρ c)
theorem V3_scale (r : Fin 256) (u : Fin 1) :
    (V3 m ρ c main_v18 : Col) (ix2 r u) = BatchStats.scale (xin m c) (m ((c : Thread nD τ).loc main_arg1)) r := by
  rw [show (V3 m ρ c main_v18 : Col) = _ from mid_scale (W2 m ρ c), scaleCol_apply, V2_w,
    show (W2 m ρ c (Proc.devRef .tc main_v1_0) : Col) = _ from V2_sum m ρ c,
    show (W2 m ρ c (Proc.devRef .tc main_v1_1) : Col) = _ from V2_sumsq m ρ c]
  rfl
theorem V3_shift (r : Fin 256) (u : Fin 1) :
    (V3 m ρ c main_v19 : Col) (ix2 r u) = BatchStats.shift (xin m c) (m ((c : Thread nD τ).loc main_arg1)) (m ((c : Thread nD τ).loc main_arg2)) r := by
  rw [show (V3 m ρ c main_v19 : Col) = _ from mid_shift (W2 m ρ c), shiftCol_apply, V2_w, V2_b,
    show (W2 m ρ c (Proc.devRef .tc main_v1_0) : Col) = _ from V2_sum m ρ c,
    show (W2 m ρ c (Proc.devRef .tc main_v1_1) : Col) = _ from V2_sumsq m ρ c]
  rfl
theorem V3_mean : (W3 m ρ c main_v4 : Vec1) = BatchStats.meanArr (xin m c) := by
  rw [show (W3 m ρ c main_v4 : Vec1) = _ from mid_mean (W2 m ρ c)]
  funext i
  obtain ⟨r, rfl⟩ : ∃ r : Fin 256, i = ix1 r := ⟨i 0, eq_ix1 i⟩
  rw [meanVec_apply, show (W2 m ρ c (Proc.devRef .tc main_v1_0) : Col) = _ from V2_sum m ρ c]
  rfl
theorem V3_var : (W3 m ρ c main_v11 : Vec1) = BatchStats.varArr (xin m c) := by
  rw [show (W3 m ρ c main_v11 : Vec1) = _ from mid_var (W2 m ρ c)]
  funext i
  obtain ⟨r, rfl⟩ : ∃ r : Fin 256, i = ix1 r := ⟨i 0, eq_ix1 i⟩
  rw [varVec_apply, show (W2 m ρ c (Proc.devRef .tc main_v1_0) : Col) = _ from V2_sum m ρ c,
    show (W2 m ρ c (Proc.devRef .tc main_v1_1) : Col) = _ from V2_sumsq m ρ c]
  rfl

/-! ### The normalised array -/

theorem V4_y : (V4 m ρ c main_v20 : BatchStats.A3.Idx → EReal)
    = BatchStats.normalized (xin m c) (m ((c : Thread nD τ).loc main_arg1)) (m ((c : Thread nD τ).loc main_arg2)) := by
  rw [show (V4 m ρ c main_v20 : BatchStats.A3.Idx → EReal) = _ from W4_arr m ρ c 3]
  funext i
  obtain ⟨n, r, j, rfl⟩ : ∃ (n : Fin 32) (r : Fin 256) (j : Fin 4096), i = ix3 n r j := ⟨i 0, i 1, i 2, eq_ix3 i⟩
  rw [Norm.norm_out_ix3 (V3 m ρ) c (xin m c) (V3 m ρ c main_v18 : Col) (V3 m ρ c main_v19 : Col) (V3_x m ρ c) rfl rfl n r j,
    BatchStats.normalized_ix3, V3_scale, V3_shift]

/-! ### The three results -/

theorem W5_y : (W5 m ρ c main_v21 : BatchStats.A4.Idx → EReal)
    = BatchStats.outY (m ((c : Thread nD τ).loc main_arg0)) (m ((c : Thread nD τ).loc main_arg1)) (m ((c : Thread nD τ).loc main_arg2)) := by
  rw [show (W5 m ρ c main_v21 : BatchStats.A4.Idx → EReal) = _ from last_y (W4 m ρ c),
    show (W4 m ρ c (Proc.devRef .tc main_v20) : BatchStats.A3.Idx → EReal) = _ from V4_y m ρ c]
  rfl
theorem W5_mean : (W5 m ρ c main_v25 : Vec1)
    = BatchStats.outMean (m ((c : Thread nD τ).loc main_arg0)) (m ((c : Thread nD τ).loc main_arg3)) := by
  rw [show (W5 m ρ c main_v25 : Vec1) = _ from last_mean (W4 m ρ c)]
  funext i
  rw [stepTo_apply, show W4 m ρ c (Proc.devRef .tc main_arg3) = _ from W4_keeps m ρ c main_arg3 (by decide) (by decide) (by decide) (by decide),
    show (W4 m ρ c (Proc.devRef .tc main_v4) : Vec1) = _ from (W4_of_ne m ρ c main_v4 (by decide)).trans (V3_mean m ρ c)]
  rfl
theorem W5_var : (W5 m ρ c main_v29 : Vec1)
    = BatchStats.outVar (m ((c : Thread nD τ).loc main_arg0)) (m ((c : Thread nD τ).loc main_arg4)) := by
  rw [show (W5 m ρ c main_v29 : Vec1) = _ from last_var (W4 m ρ c)]
  funext i
  rw [stepTo_apply, show W4 m ρ c (Proc.devRef .tc main_arg4) = _ from W4_keeps m ρ c main_arg4 (by decide) (by decide) (by decide) (by decide),
    show (W4 m ρ c (Proc.devRef .tc main_v11) : Vec1) = _ from (W4_of_ne m ρ c main_v11 (by decide)).trans (V3_var m ρ c)]
  rfl

/-- Every weakly fair execution of the reference terminates, nothing faulting, with the three results at the
    specification's functions of the arguments as launched, and the arguments unchanged. -/
theorem run : θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v21) = BatchStats.outY (m ((c.tc : Thread nD τ).loc main_arg0)) (m ((c.tc : Thread nD τ).loc main_arg1)) (m ((c.tc : Thread nD τ).loc main_arg2))
      ∧ r.2.mem ((c.tc : Thread nD τ).loc main_v25) = BatchStats.outMean (m ((c.tc : Thread nD τ).loc main_arg0)) (m ((c.tc : Thread nD τ).loc main_arg3))
      ∧ r.2.mem ((c.tc : Thread nD τ).loc main_v29) = BatchStats.outVar (m ((c.tc : Thread nD τ).loc main_arg0)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (Cert.ReferenceIdeal.defs (F := Ideal)) _ _).mono (fun r h c =>
    ⟨(h c _ (mem_uc main_v21 (by decide))).trans (W5_y m ρ c),
     (h c _ (mem_uc main_v25 (by decide))).trans (W5_mean m ρ c),
     (h c _ (mem_uc main_v29 (by decide))).trans (W5_var m ρ c),
     (h c _ (mem_uc main_arg0 (by decide))).trans (W5_keeps m ρ c main_arg0 (by decide) (by decide) (by decide) (by decide) (by decide)),
     (h c _ (mem_uc main_arg1 (by decide))).trans (W5_keeps m ρ c main_arg1 (by decide) (by decide) (by decide) (by decide) (by decide)),
     (h c _ (mem_uc main_arg2 (by decide))).trans (W5_keeps m ρ c main_arg2 (by decide) (by decide) (by decide) (by decide) (by decide)),
     (h c _ (mem_uc main_arg3 (by decide))).trans (W5_keeps m ρ c main_arg3 (by decide) (by decide) (by decide) (by decide) (by decide)),
     (h c _ (mem_uc main_arg4 (by decide))).trans (W5_keeps m ρ c main_arg4 (by decide) (by decide) (by decide) (by decide) (by decide))⟩)
    (run_all (F := Ideal) m ρ)

end Cert.ReferenceIdeal.TwoPass

end
-- ==== Proof.lean ====
/-
  Training-mode batch normalisation in one pass against the same in two passes, on the extended reals.

  The kernel's program reads the input once: a grid point takes sixteen channels of the whole batch, sums each
  channel and its squares over batch and position, and from those computes the mean (the sum times 2^-17), the
  clipped variance, the scale w * rsqrt (var + eps), the shift b - mean * scale, the normalised block, and the
  block's mean and variance; the host then steps the running statistics. The reference's program makes two passes:
  the first accumulates, point by point over 32 x 4 tiles, every channel's entries and their squares lane by lane
  and sums the lanes at the last point; the host divides by 131072 and forms the same variance, scale and shift;
  the second pass normalises tile by tile; the host steps the running statistics the same way.

  At the ideal instance both are the specification's functions of the five arguments (`BatchStats.outY`,
  `outMean`, `outVar`): a channel's sum is one sum over batch and position however it is tiled or ordered
  (addition of extended reals is commutative and associative, so no finiteness is used), and dividing by 131072 is
  multiplying by the word of 2^-17 on every extended real. Every other constant is the same word on both sides.
  So the two runs are stated with the same three result terms, the arguments' agreement rewritten.

  The kernel's two frames are the generated ones; the reference's frame is its run with the results dropped;
  the idealised kernel is the word-level kernel with no rewrite applied, so the preservation claim is empty.
-/
import proofs.«110882_g2000100512545763_pallasbulk_79_2_alg».proof.Defs
import proofs.«110882_g2000100512545763_pallasbulk_79_2_alg».proof.Proof.Gen.Kernel
import proofs.«110882_g2000100512545763_pallasbulk_79_2_alg».proof.Proof.Gen.Kernel.Frame
import proofs.«110882_g2000100512545763_pallasbulk_79_2_alg».proof.Proof.Gen.KernelIdeal
import proofs.«110882_g2000100512545763_pallasbulk_79_2_alg».proof.Proof.Gen.KernelIdeal.Frame
import proofs.«110882_g2000100512545763_pallasbulk_79_2_alg».proof.Proof.Gen.ReferenceIdeal
import proofs.«110882_g2000100512545763_pallasbulk_79_2_alg».proof.Proof.Gen.Pre_finite_inputs
import proofs.«110882_g2000100512545763_pallasbulk_79_2_alg».proof.Proof.FusedValue
import proofs.«110882_g2000100512545763_pallasbulk_79_2_alg».proof.Proof.TwoPassValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the three results dropped. -/
theorem frame_referenceIdeal : Cert.frame_ReferenceIdeal := fun m ρ _ =>
  (θ_run (Cert.ReferenceIdeal.defs (F := Ideal)) _ _).mono (fun _ h c => (h c).2.2.2)
    (Cert.ReferenceIdeal.TwoPass.run m ρ)

theorem preserves : Cert.preserves_Kernel_KernelIdeal := trivial

/-- Both programs end with the three results at the specification's functions of the arguments, which agree. -/
theorem algebraic : Cert.algebraic_KernelIdeal_ReferenceIdeal := by
  intro m ρ m' ρ' _ hagree
  refine ⟨_, _, _, Cert.KernelIdeal.FusedValue.run m ρ, ?_⟩
  refine (θ_run (Cert.ReferenceIdeal.defs (F := Ideal)) _ _).mono (fun r h c => ?_) (Cert.ReferenceIdeal.TwoPass.run m' ρ')
  obtain ⟨e0, e1, e2, e3, e4⟩ := hagree c
  obtain ⟨hy, hm, hv, hk⟩ := h c
  refine ⟨hy.trans ?_, hm.trans ?_, hv.trans ?_, hk⟩
  · rw [e0, e1, e2]
  · rw [e0, e3]
  · rw [e0, e4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
